-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S3x128x32 : Shape := ⟨3, ![3, 128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x32 : S_.BroadcastsInDim S3x128x32 (![] : Fin 0 → Fin S3x128x32.rank)
  reducesTo_S3x128x32_S_d0_1_2 : S3x128x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128 .f32) (main_arg6 : FVec F S3x128x32 .f32) (main_arg7 : FVec F S32 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x32 .f32 := Host.absf main_arg6
  let main_cst_8 : FVec F S_ .f32 := constant S_ .f32 0x7F800000#32
  let main_v25 : FVec F S3x128x32 .f32 := broadcastInDim S3x128x32 ![] bcast_S_S3x128x32 main_cst_8
  let main_v26 : IVec S3x128x32 1 := cmpf .olt main_v24 main_v25
  let main_c_9 : IVec S_ 1 := constantI S_ 1 1#1
  let main_v27 : IVec S_ 1 := (fun x v => Host.reduce IntOp.andi x v reducesTo_S3x128x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S3x128x128 .f32) (main_arg3 : FVec F S128 .f32) (main_arg4 : FVec F S3x128x128 .f32) (main_arg5 : FVec F S128 .f32) (main_arg6 : FVec F S3x128x32 .f32) (main_arg7 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S3x128x32 : Shape := ⟨3, ![3, 128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S1x128x32 : Shape := ⟨3, ![1, 128, 32]⟩
abbrev S128x32 : Shape := ⟨2, ![128, 32]⟩
abbrev S1x32 : Shape := ⟨2, ![1, 32]⟩
abbrev S50000x32 : Shape := ⟨2, ![50000, 32]⟩
abbrev S5000x32 : Shape := ⟨2, ![5000, 32]⟩

abbrev nBuf : Space → Nat
  | .hbm => 181
  | .vmem => 36
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S128, .f32⟩
  | 4 => ⟨S3x128x128, .f32⟩
  | 5 => ⟨S128, .f32⟩
  | 6 => ⟨S3x128x32, .f32⟩
  | 7 => ⟨S32, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x1, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S1x128x128, .f32⟩
  | 86 => ⟨S128x128, .f32⟩
  | 87 => ⟨S1x128x128, .f32⟩
  | 88 => ⟨S128x128, .f32⟩
  | 89 => ⟨S1x128x128, .f32⟩
  | 90 => ⟨S128x128, .f32⟩
  | 91 => ⟨S1x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x1, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S800000x1, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x128, .f32⟩
  | 2 => ⟨S128x128, .f32⟩
  | 3 => ⟨S1x128x128, .f32⟩
  | 4 => ⟨S128x128, .f32⟩
  | 5 => ⟨S1x128x128, .f32⟩
  | 6 => ⟨S128x128, .f32⟩
  | 7 => ⟨S1x128, .f32⟩
  | 8 => ⟨S50000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x1, .f32⟩
  | 19 => ⟨S800000x128, .f32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x1, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S1x128x32, .f32⟩
  | 46 => ⟨S128x32, .f32⟩
  | 47 => ⟨S1x128x32, .f32⟩
  | 48 => ⟨S128x32, .f32⟩
  | 49 => ⟨S1x128x32, .f32⟩
  | 50 => ⟨S128x32, .f32⟩
  | 51 => ⟨S1x32, .f32⟩
  | 52 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x32, .f32⟩
  | .local _ .vmem, ⟨31, _⟩ => ⟨S128x32, .f32⟩
  | .local _ .vmem, ⟨32, _⟩ => ⟨S128x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_20 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_21 : Ref sig .tc := ⟨.hbm, 137, rfl⟩
abbrev main_v104 : Ref sig .tc := ⟨.hbm, 138, rfl⟩
abbrev main_v105 : Ref sig .tc := ⟨.hbm, 139, rfl⟩
abbrev main_c_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_24 : Ref sig .tc := ⟨.hbm, 153, rfl⟩
abbrev main_v117 : Ref sig .tc := ⟨.hbm, 154, rfl⟩
abbrev main_v118 : Ref sig .tc := ⟨.hbm, 155, rfl⟩
abbrev main_c_25 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_26 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_27 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x32_S1x128x32_0_0_0 : S3x128x32.Slices ![0, 0, 0] S1x128x32
  shapeCasts_S1x128x32_S128x32 : S1x128x32.ShapeCasts S128x32
  slices_S3x128x32_S1x128x32_1_0_0 : S3x128x32.Slices ![1, 0, 0] S1x128x32
  slices_S3x128x32_S1x128x32_2_0_0 : S3x128x32.Slices ![2, 0, 0] S1x128x32
  shapeCasts_S32_S1x32 : S32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x32.size a ≤ S128x32.size a
  hwx2_4 : ∀ i : grid2.Coords, EltTy.bits .f32 = 32 ∨ (Rect.block (s := S128x32) S128x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x32.size a ≤ S50000x32.size a
  hwx2_7 : ∀ i : grid2.Coords, EltTy.bits .f32 = 32 ∨ (Rect.block (s := S50000x32) S5000x32.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v66) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v66) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v95) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v97) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v99) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v101) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v102) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v103) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v103) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v116) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v132) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v134) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S128x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v138) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v139) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v140) S5000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S3x128x32 : Shape := ⟨3, ![3, 128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x128x32 : Shape := ⟨3, ![1, 128, 32]⟩
abbrev S128x32 : Shape := ⟨2, ![128, 32]⟩
abbrev S50000x32 : Shape := ⟨2, ![50000, 32]⟩
abbrev S1x32 : Shape := ⟨2, ![1, 32]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S128, .f32⟩
  | 4 => ⟨S3x128x128, .f32⟩
  | 5 => ⟨S128, .f32⟩
  | 6 => ⟨S3x128x32, .f32⟩
  | 7 => ⟨S32, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S1x128x128, .f32⟩
  | 50 => ⟨S128x128, .f32⟩
  | 51 => ⟨S50000x128, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x128x128, .f32⟩
  | 69 => ⟨S128x128, .f32⟩
  | 70 => ⟨S50000x128, .f32⟩
  | 71 => ⟨S50000x128, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S1x128x128, .f32⟩
  | 122 => ⟨S128x128, .f32⟩
  | 123 => ⟨S50000x128, .f32⟩
  | 124 => ⟨S50000x128, .f32⟩
  | 125 => ⟨S800000x1, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S800000x128, .f32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S_, .f32⟩
  | 14 => ⟨S50000x128, .f32⟩
  | 15 => ⟨S50000x128, .f32⟩
  | 16 => ⟨S50000x128, .f32⟩
  | 17 => ⟨S1x128x128, .f32⟩
  | 18 => ⟨S128x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x32, .f32⟩
  | 28 => ⟨S128x32, .f32⟩
  | 29 => ⟨S50000x32, .f32⟩
  | 30 => ⟨S800000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x128, .f32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S1x128x32, .f32⟩
  | 47 => ⟨S128x32, .f32⟩
  | 48 => ⟨S50000x32, .f32⟩
  | 49 => ⟨S50000x32, .f32⟩
  | 50 => ⟨S800000x1, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S1x128x32, .f32⟩
  | 71 => ⟨S128x32, .f32⟩
  | 72 => ⟨S50000x32, .f32⟩
  | 73 => ⟨S50000x32, .f32⟩
  | 74 => ⟨S1x32, .f32⟩
  | 75 => ⟨S50000x32, .f32⟩
  | 76 => ⟨S50000x32, .f32⟩
  | 77 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_19 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_20 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call2_cst : Ref sig .tc := ⟨.hbm, 152, rfl⟩
abbrev main_call2_v0 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_21 : Ref sig .tc := ⟨.hbm, 159, rfl⟩
abbrev main_v122 : Ref sig .tc := ⟨.hbm, 160, rfl⟩
abbrev main_v123 : Ref sig .tc := ⟨.hbm, 161, rfl⟩
abbrev main_c_22 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_23 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_c_24 : Ref sig .tc := ⟨.hbm, 179, rfl⟩
abbrev main_v139 : Ref sig .tc := ⟨.hbm, 180, rfl⟩
abbrev main_v140 : Ref sig .tc := ⟨.hbm, 181, rfl⟩
abbrev main_c_25 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_26 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_27 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x32_S1x128x32_0_0_0 : S3x128x32.Slices ![0, 0, 0] S1x128x32
  shapeCasts_S1x128x32_S128x32 : S1x128x32.ShapeCasts S128x32
  slices_S3x128x32_S1x128x32_1_0_0 : S3x128x32.Slices ![1, 0, 0] S1x128x32
  slices_S3x128x32_S1x128x32_2_0_0 : S3x128x32.Slices ![2, 0, 0] S1x128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The idealized kernel's run with its RESULT named.

  @main is eight segments: three stretches of host operations, then region 0, a stretch, region 1, a stretch,
  region 2.  The contents of every TensorCore buffer at each segment boundary are a fold from the launch memory
  (`Gen.W0 … Gen.W8`): a stretch applies its operations, a region replaces its arrays by what its write-backs leave.
  Every weakly fair execution terminates with every unscoped buffer at the last boundary's contents `Gen.W8`; read at
  the eight argument arrays that is the frame claim, and read at the result array as well it is the statement below:
  the result array ends at `Gen.W8 m ρ c` of its reference, the arguments as launched.
-/
import proofs.«178498_j59657095741758_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the eight argument arrays as launched. -/
theorem run_result : θ_run defs (onTc (τ := τ) (main (F := F))) ⟨m, fun _ => 0, ρ⟩ (fun r => ∀ c : Dev nD,
      r.2.mem ((c.tc : Thread nD τ).loc main_v140) = W8 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v140 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibVec.lean ====
/-
  Two general facts about vectors of extended reals, used where two programs spell one array differently.
-/
import Idealize.ShloMosaic.PureOps.Ideal
import Idealize.ShloMosaic.Lib.ValueIdx
import Idealize.ShloMosaic.Lib.Pipeline.Value

noncomputable section

namespace Cert.LibVec

open Idealize.ShloMosaic

/-- The entrywise product of two vectors of extended reals does not depend on the order of its factors:
    multiplication of extended reals is commutative, at the infinities too. -/
theorem mulf_comm {s : Shape} {φ : FTy} (a b : FVec Ideal s φ) : mulf a b = mulf b a :=
  funext fun i => mul_comm (a i) (b i)

/-- A vector of n entries laid out as a matrix of one row is the same array whether the row is made by re-laying
    the n entries in row-major order or by broadcasting entry j to position (0, j): both put entry j at (0, j). -/
theorem row_of_vec {α : Type} {n : Nat} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) (hn : n ≠ 1) :
    shapeCast ⟨2, ![1, n]⟩ x h = broadcastInDim ⟨2, ![1, n]⟩ ![1] h' x := by
  funext j
  have hj0 : (j 0).val = 0 := by have := (j 0).isLt; simp at this; omega
  have e1 : shapeCast ⟨2, ![1, n]⟩ x h j = x (ValueIdx.ix1 (j 1)) :=
    shapeCast_apply x h j (ValueIdx.ix1 (j 1)) (by
      rw [Shape.rowMajor_val_one, Shape.rowMajor_val_two]
      show (j 1).val = (j 0).val * n + (j 1).val
      rw [hj0]; omega)
  have e2 : broadcastInDim ⟨2, ![1, n]⟩ ![1] h' x j = x (ValueIdx.ix1 (j 1)) :=
    broadcastInDim_apply ![1] h' x j (ValueIdx.ix1 (j 1)) (fun a => match a with
      | ⟨0, _⟩ => by show (j 1).val = if n = 1 then 0 else (j 1).val; rw [if_neg hn])
  rw [e1, e2]

end Cert.LibVec

end
-- ==== Proof.HostRead0.lean ====
/-
  What region 0 finds in its arrays.

  Before the first layer's dense combine the program computes, by host operations on whole arrays: the source and
  target node of every edge (the two rows of the edge list); every node's out-degree and from it the edge weight
  w_e = -d(src e)^(-1/2) · d(dst e)^(-1/2), zero where the degree is zero; the first Chebyshev term T1 = L·x, where
  (L·h)[v] is the sum over the edges e into v of h[src e] · w_e (a gather of rows, a product with the weights, a
  scatter-add); the second term T2 = 2·L·T1 - x; the three weight matrices as slices of the weight stack; and the bias
  laid out as a row. The reference computes the same arrays by the same operations, except that it writes the product
  inside L as w_e · h[src e] and makes the bias row by a broadcast rather than by re-laying the vector. Products of
  extended reals commute and both layouts put entry j at (0, j), so each array the region finds IS the reference's
  stage for it, as a function of the argument arrays.

  The operations come in three stretches: the rows of the edge list and the degrees; the selection "inverse square root
  of the degree where the degree is positive, else zero"; and everything after it. Each stretch is read from the
  contents the one before leaves.
-/
import proofs.«178498_j59657095741758_1_alg».proof.Proof.Gen.KernelIdeal.Frame
import proofs.«178498_j59657095741758_1_alg».proof.Proof.RefRead
import proofs.«178498_j59657095741758_1_alg».proof.Proof.LibVec
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Inside L the kernel's program multiplies the gathered rows by the weights, the reference the weights by the
    gathered rows: one array. -/
theorem gather_mul_comm (x : FVec Ideal S50000x128 .f32) (i : IVec S800000x1 32) (w : FVec Ideal S800000x128 .f32) :
    mulf (Host.gather gather_S50000x128_S800000x1_S800000x128_1_0_n_n_0_1_1128 x i) w
      = mulf w (Host.gather gather_S50000x128_S800000x1_S800000x128_1_0_n_n_0_1_1128 x i) :=
  Cert.LibVec.mulf_comm _ _

/-! ## The first stretch: the rows of the edge list, the degrees, their inverse square roots -/

theorem v1_at1 : W1 m ρ c (Proc.devRef .tc main_v1) = Cert.ReferenceIdeal.ReadP.val_main_v1 (F := Ideal) (m ((c.tc : Thread nD τ).loc main_arg1)) := by
  after_results_simp <;> rfl
theorem v3_at1 : W1 m ρ c (Proc.devRef .tc main_v3) = Cert.ReferenceIdeal.ReadP.val_main_v3 (F := Ideal) (m ((c.tc : Thread nD τ).loc main_arg1)) := by
  after_results_simp <;> rfl
/-- Where the degree is positive. -/
theorem v9_at1 : W1 m ρ c (Proc.devRef .tc main_v9) = Cert.ReferenceIdeal.ReadP.val_main_v9 (F := Ideal) (m ((c.tc : Thread nD τ).loc main_arg1)) := by
  after_results_simp <;> rfl
/-- The inverse square root of the larger of the degree and one. -/
theorem v12_at1 : W1 m ρ c (Proc.devRef .tc main_v12) = Cert.ReferenceIdeal.ReadP.val_main_v12 (F := Ideal) (m ((c.tc : Thread nD τ).loc main_arg1)) := by
  after_results_simp <;> rfl
theorem cst3_at1 : W1 m ρ c (Proc.devRef .tc main_cst_3) = Cert.ReferenceIdeal.ReadP.val_main_cst_3 (F := Ideal) := by
  after_results_simp <;> rfl
/-- No operation of the first stretch writes an argument array. -/
theorem arg_at1 (b : Ref sig .tc) (hb : b = main_arg0 ∨ b = main_arg2 ∨ b = main_arg3 ∨ b = main_arg4 ∨ b = main_arg5 ∨ b = main_arg6 ∨ b = main_arg7) :
    W1 m ρ c (Proc.devRef .tc b) = m ((c.tc : Thread nD τ).loc b) := by
  rcases hb with rfl | rfl | rfl | rfl | rfl | rfl | rfl <;> (after_results_simp <;> rfl)

/-! ## The second stretch: the selection

The selection reads three buffers and writes one; whatever the contents it starts from, its result is the selection of
the second where the first is set, else of the third broadcast over the nodes. (Its operands are held at references that
carry their tensor type; at literal references reading and writing through them is the identity.) -/

theorem where_result (Wv : Valuation τ sig (Elt Ideal)) :
    StableHlo.after (hostOps0_1 (F := Ideal)) Wv (Proc.devRef .tc main_v13)
      = select (Wv (Proc.devRef .tc main_v9)) (Wv (Proc.devRef .tc main_v12))
          (broadcastInDim S50000 ![] bcast_S_S50000 (id (Wv (Proc.devRef .tc main_cst_3)))) := by
  after_results_simp <;> rfl

/-- The inverse square root of the degree where the degree is positive, else zero. -/
theorem v13_at2 : W2 m ρ c (Proc.devRef .tc main_v13) = Cert.ReferenceIdeal.ReadP.val_main_v13 (F := Ideal) (m ((c.tc : Thread nD τ).loc main_arg1)) := by
  show StableHlo.after hostOps0_1 (W1 m ρ c) (Proc.devRef .tc main_v13) = _
  rw [where_result, v9_at1 m ρ c, v12_at1 m ρ c, cst3_at1 m ρ c]
  rfl
/-- The selection writes neither row of the edge list. -/
theorem v1_at2 : W2 m ρ c (Proc.devRef .tc main_v1) = Cert.ReferenceIdeal.ReadP.val_main_v1 (F := Ideal) (m ((c.tc : Thread nD τ).loc main_arg1)) := by
  show StableHlo.after hostOps0_1 (W1 m ρ c) (Proc.devRef .tc main_v1) = _
  have e := v1_at1 m ρ c
  generalize W1 m ρ c = Wv at e ⊢
  after_results_simp
  exact e
theorem v3_at2 : W2 m ρ c (Proc.devRef .tc main_v3) = Cert.ReferenceIdeal.ReadP.val_main_v3 (F := Ideal) (m ((c.tc : Thread nD τ).loc main_arg1)) := by
  show StableHlo.after hostOps0_1 (W1 m ρ c) (Proc.devRef .tc main_v3) = _
  have e := v3_at1 m ρ c
  generalize W1 m ρ c = Wv at e ⊢
  after_results_simp
  exact e
/-- … nor an argument array. -/
theorem arg_at2 (b : Ref sig .tc) (hb : b = main_arg0 ∨ b = main_arg2 ∨ b = main_arg3 ∨ b = main_arg4 ∨ b = main_arg5 ∨ b = main_arg6 ∨ b = main_arg7) :
    W2 m ρ c (Proc.devRef .tc b) = m ((c.tc : Thread nD τ).loc b) := by
  show StableHlo.after hostOps0_1 (W1 m ρ c) (Proc.devRef .tc b) = _
  have e := arg_at1 m ρ c b hb
  generalize W1 m ρ c = Wv at e ⊢
  rcases hb with rfl | rfl | rfl | rfl | rfl | rfl | rfl <;> (after_results_simp; exact e)

/-! ## The third stretch: the edge weights, the Chebyshev terms, the layer's parameters -/

/-- The source node of every edge. -/
theorem v1_at3 : W3 m ρ c (Proc.devRef .tc main_v1)
    = Cert.ReferenceIdeal.ReadP.val_main_v1 (F := Ideal) (m ((c.tc : Thread nD τ).loc main_arg1)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v1) = _
  generalize W2 m ρ c = Wv at e13 e1 e3 ea0 ea2 ea3 ⊢
  after_results_simp
  simp only [e13, e1, e3, ea0, ea2, ea3] <;> rfl

/-- The target node of every edge. -/
theorem v3_at3 : W3 m ρ c (Proc.devRef .tc main_v3)
    = Cert.ReferenceIdeal.ReadP.val_main_v3 (F := Ideal) (m ((c.tc : Thread nD τ).loc main_arg1)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v3) = _
  generalize W2 m ρ c = Wv at e13 e1 e3 ea0 ea2 ea3 ⊢
  after_results_simp
  simp only [e13, e1, e3, ea0, ea2, ea3] <;> rfl

/-- The weight of every edge. -/
theorem v29_at3 : W3 m ρ c (Proc.devRef .tc main_v29)
    = Cert.ReferenceIdeal.ReadP.val_main_v29 (F := Ideal) (m ((c.tc : Thread nD τ).loc main_arg1)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v29) = _
  generalize W2 m ρ c = Wv at e13 e1 e3 ea0 ea2 ea3 ⊢
  after_results_simp
  simp only [e13, e1, e3, ea0, ea2, ea3] <;> rfl

/-- The node features, as launched. -/
theorem arg0_at3 : W3 m ρ c (Proc.devRef .tc main_arg0)
    = (m ((c.tc : Thread nD τ).loc main_arg0)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_arg0) = _
  generalize W2 m ρ c = Wv at e13 e1 e3 ea0 ea2 ea3 ⊢
  after_results_simp
  simp only [e13, e1, e3, ea0, ea2, ea3] <;> rfl

/-- The first Chebyshev term of the node features, L·x. -/
theorem T1_at3 : W3 m ρ c (Proc.devRef .tc main_v42)
    = Cert.ReferenceIdeal.ReadP.val_main_v45 (F := Ideal) (m ((c.tc : Thread nD τ).loc main_arg0)) (m ((c.tc : Thread nD τ).loc main_arg1)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v42) = _
  generalize W2 m ρ c = Wv at e13 e1 e3 ea0 ea2 ea3 ⊢
  after_results_simp
  simp only [e13, e1, e3, ea0, ea2, ea3, gather_mul_comm] <;> rfl

/-- The second Chebyshev term, 2·L·(L·x) - x. -/
theorem T2_at3 : W3 m ρ c (Proc.devRef .tc main_v58)
    = Cert.ReferenceIdeal.ReadP.val_main_v65 (F := Ideal) (m ((c.tc : Thread nD τ).loc main_arg0)) (m ((c.tc : Thread nD τ).loc main_arg1)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v58) = _
  generalize W2 m ρ c = Wv at e13 e1 e3 ea0 ea2 ea3 ⊢
  after_results_simp
  simp only [e13, e1, e3, ea0, ea2, ea3, gather_mul_comm] <;> rfl

/-- The first layer's weight matrix for the term of order 0. -/
theorem W0_at3 : W3 m ρ c (Proc.devRef .tc main_v60)
    = Cert.ReferenceIdeal.ReadP.val_main_v31 (F := Ideal) (m ((c.tc : Thread nD τ).loc main_arg2)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v60) = _
  generalize W2 m ρ c = Wv at e13 e1 e3 ea0 ea2 ea3 ⊢
  after_results_simp
  simp only [e13, e1, e3, ea0, ea2, ea3] <;> rfl

/-- The first layer's weight matrix for the term of order 1. -/
theorem W1_at3 : W3 m ρ c (Proc.devRef .tc main_v62)
    = Cert.ReferenceIdeal.ReadP.val_main_v47 (F := Ideal) (m ((c.tc : Thread nD τ).loc main_arg2)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v62) = _
  generalize W2 m ρ c = Wv at e13 e1 e3 ea0 ea2 ea3 ⊢
  after_results_simp
  simp only [e13, e1, e3, ea0, ea2, ea3] <;> rfl

/-- The first layer's weight matrix for the term of order 2. -/
theorem W2_at3 : W3 m ρ c (Proc.devRef .tc main_v64)
    = Cert.ReferenceIdeal.ReadP.val_main_v67 (F := Ideal) (m ((c.tc : Thread nD τ).loc main_arg2)) := by
  have e13 := v13_at2 m ρ c
  have e1 := v1_at2 m ρ c
  have e3 := v3_at2 m ρ c
  have ea0 := arg_at2 m ρ c main_arg0 (by decide)
  have ea2 := arg_at2 m ρ c main_arg2 (by decide)
  have ea3 := arg_at2 m ρ c main_arg3 (by decide)
  show StableHlo.after hostOps0_2 (W2 m ρ c) (Proc.devRef .tc main_v64) = _
  generalize W2 m ρ c = Wv at e13 e1 e3 ea0 ea2 ea3 ⊢
  after_results_simp
  simp only [e13, e1, e3, ea0, ea2, ea3] <;> rfl

/-- The first layer's bias as a row: the kernel's program re-lays the vector, the reference broadcasts it. -/
theorem b_at3 : W3 m ρ c (Proc.devRef .tc main_v65)
    = Cert.ReferenceIdeal.ReadP.val_main_v70 (F := Ideal) (m ((c.tc : Thread nD τ).loc main_arg3)) := by
  have ea3 := arg_at2 m ρ c main_arg3 (by decide)
  show StableHlo.after hostOps0_2 (W2 m ρ c) (Proc.devRef .tc main_v65) = _
  generalize W2 m ρ c = Wv at ea3 ⊢
  after_results_simp
  simp only [ea3]
  exact Cert.LibVec.row_of_vec _ _ _ (by decide)

/-! ## What is carried past region 0

Region 0 writes only its own output array, and the third stretch writes no argument array; the edge list's rows, the
edge weights and the later layers' parameters are at region 0's exit what they were before. -/

theorem arg_at3 (b : Ref sig .tc) (hb : b = main_arg4 ∨ b = main_arg5 ∨ b = main_arg6 ∨ b = main_arg7) :
    W3 m ρ c (Proc.devRef .tc b) = m ((c.tc : Thread nD τ).loc b) := by
  show StableHlo.after hostOps0_2 (W2 m ρ c) (Proc.devRef .tc b) = _
  have e := arg_at2 m ρ c b (by rcases hb with rfl | rfl | rfl | rfl <;> simp)
  generalize W2 m ρ c = Wv at e ⊢
  rcases hb with rfl | rfl | rfl | rfl <;> (after_results_simp; exact e)
theorem arg_at4 (b : Ref sig .tc) (hb : b = main_arg4 ∨ b = main_arg5 ∨ b = main_arg6 ∨ b = main_arg7) :
    W4 m ρ c (Proc.devRef .tc b) = m ((c.tc : Thread nD τ).loc b) :=
  (W4_of_ne m ρ c b (by rcases hb with rfl | rfl | rfl | rfl <;> decide)).trans (arg_at3 m ρ c b hb)
theorem v1_at4 : W4 m ρ c (Proc.devRef .tc main_v1) = Cert.ReferenceIdeal.ReadP.val_main_v1 (F := Ideal) (m ((c.tc : Thread nD τ).loc main_arg1)) :=
  (W4_of_ne m ρ c main_v1 (by decide)).trans (v1_at3 m ρ c)
theorem v3_at4 : W4 m ρ c (Proc.devRef .tc main_v3) = Cert.ReferenceIdeal.ReadP.val_main_v3 (F := Ideal) (m ((c.tc : Thread nD τ).loc main_arg1)) :=
  (W4_of_ne m ρ c main_v3 (by decide)).trans (v3_at3 m ρ c)
theorem v29_at4 : W4 m ρ c (Proc.devRef .tc main_v29) = Cert.ReferenceIdeal.ReadP.val_main_v29 (F := Ideal) (m ((c.tc : Thread nD τ).loc main_arg1)) :=
  (W4_of_ne m ρ c main_v29 (by decide)).trans (v29_at3 m ρ c)

end Cert.KernelIdeal.HostValue

end
-- ==== Proof.Layer.lean ====
/-
  One graph-convolution layer's dense combine, as a function of whole arrays, entry by entry, on the extended reals.

  A layer takes three node-feature arrays T0, T1, T2 (the Chebyshev terms, 50000 rows of 128 features), three weight
  matrices W0, W1, W2 (128 rows, n columns), and a bias row b (one row of n entries).  Entry (r, j) of the result is

      act ( Σ_k T0[r,k]·W0[k,j]  +  Σ_k T1[r,k]·W1[k,j]  +  Σ_k T2[r,k]·W2[k,j]  +  b[0,j] )

  with the three sums added left to right and the bias last; `act` is the maximum with zero for the two hidden
  layers and the hyperbolic tangent for the last.  Nothing here needs the entries to be finite: the sums are sums in
  the commutative monoid of extended reals and are only ever re-indexed, never re-associated across a product.
-/
import Idealize.ShloMosaic.PureOps.Ideal
import Idealize.ShloMosaic.Lib.ValueIdx

noncomputable section

namespace Cert.Layer

open Idealize.ShloMosaic Idealize.ShloMosaic.ValueIdx

/-- Row `r` of a 128-feature array against column `j` of a 128 × n weight matrix: the plain sum of products. -/
def rowDot {R n : Nat} (T : (⟨2, ![R, 128]⟩ : Shape).Idx → EReal) (W : (⟨2, ![128, n]⟩ : Shape).Idx → EReal)
    (r : Fin R) (j : Fin n) : EReal :=
  ∑ k : Fin 128, T (ix2 r k) * W (ix2 k j)

/-- Entry (r, j) before the activation: the three terms' products summed left to right, then the bias row's entry j. -/
def pre {R n : Nat} (T0 T1 T2 : (⟨2, ![R, 128]⟩ : Shape).Idx → EReal) (W0 W1 W2 : (⟨2, ![128, n]⟩ : Shape).Idx → EReal)
    (b : (⟨2, ![1, n]⟩ : Shape).Idx → EReal) (r : Fin R) (j : Fin n) : EReal :=
  ((rowDot T0 W0 r j + rowDot T1 W1 r j) + rowDot T2 W2 r j) + b (ix2 0 j)

/-- A hidden layer: the maximum of each entry with zero (zero written as the single-precision zero word's value). -/
def relu {R n : Nat} (T0 T1 T2 : (⟨2, ![R, 128]⟩ : Shape).Idx → EReal) (W0 W1 W2 : (⟨2, ![128, n]⟩ : Shape).Idx → EReal)
    (b : (⟨2, ![1, n]⟩ : Shape).Idx → EReal) : (⟨2, ![R, n]⟩ : Shape).Idx → EReal :=
  fun i => max (pre T0 T1 T2 W0 W1 W2 b (i 0) (i 1)) (Ideal.ofBits .f32 0x00000000#32)

/-- The last layer: the hyperbolic tangent of each entry (at the infinities its limits -1 and 1). -/
def tanh {R n : Nat} (T0 T1 T2 : (⟨2, ![R, 128]⟩ : Shape).Idx → EReal) (W0 W1 W2 : (⟨2, ![128, n]⟩ : Shape).Idx → EReal)
    (b : (⟨2, ![1, n]⟩ : Shape).Idx → EReal) : (⟨2, ![R, n]⟩ : Shape).Idx → EReal :=
  fun i => Ideal.tanh (pre T0 T1 T2 W0 W1 W2 b (i 0) (i 1))

/-- A block of consecutive rows of a hidden layer's result is the same layer applied to that block of rows of the three
    terms: entry (p, j) of the block starting at row `o` depends on row `o + p` of each term only. -/
theorem relu_rows {R R' n : Nat} (T0 T1 T2 : (⟨2, ![R, 128]⟩ : Shape).Idx → EReal)
    (T0' T1' T2' : (⟨2, ![R', 128]⟩ : Shape).Idx → EReal) (W0 W1 W2 : (⟨2, ![128, n]⟩ : Shape).Idx → EReal)
    (b : (⟨2, ![1, n]⟩ : Shape).Idx → EReal) (r : Fin R) (p : Fin R') (j : Fin n)
    (h0 : ∀ k, T0' (ix2 p k) = T0 (ix2 r k)) (h1 : ∀ k, T1' (ix2 p k) = T1 (ix2 r k)) (h2 : ∀ k, T2' (ix2 p k) = T2 (ix2 r k)) :
    relu T0' T1' T2' W0 W1 W2 b (ix2 p j) = relu T0 T1 T2 W0 W1 W2 b (ix2 r j) := by
  show max (pre T0' T1' T2' W0 W1 W2 b p j) _ = max (pre T0 T1 T2 W0 W1 W2 b r j) _
  unfold pre rowDot
  simp only [h0, h1, h2]

/-- The same for the last layer. -/
theorem tanh_rows {R R' n : Nat} (T0 T1 T2 : (⟨2, ![R, 128]⟩ : Shape).Idx → EReal)
    (T0' T1' T2' : (⟨2, ![R', 128]⟩ : Shape).Idx → EReal) (W0 W1 W2 : (⟨2, ![128, n]⟩ : Shape).Idx → EReal)
    (b : (⟨2, ![1, n]⟩ : Shape).Idx → EReal) (r : Fin R) (p : Fin R') (j : Fin n)
    (h0 : ∀ k, T0' (ix2 p k) = T0 (ix2 r k)) (h1 : ∀ k, T1' (ix2 p k) = T1 (ix2 r k)) (h2 : ∀ k, T2' (ix2 p k) = T2 (ix2 r k)) :
    tanh T0' T1' T2' W0 W1 W2 b (ix2 p j) = tanh T0 T1 T2 W0 W1 W2 b (ix2 r j) := by
  show Ideal.tanh (pre T0' T1' T2' W0 W1 W2 b p j) = Ideal.tanh (pre T0 T1 T2 W0 W1 W2 b r j)
  unfold pre rowDot
  simp only [h0, h1, h2]

end Cert.Layer

end
-- ==== Proof.RegionValueMatmul.lean ====
/-
  The body's matrix products on the extended reals, read entry by entry.

  Each grid point multiplies a block of 5000 rows of a term (128 features) by a weight matrix (128 rows; 128 columns in
  the two hidden layers, 32 in the last) into an accumulator of zeros.  On the extended reals entry (p, q) of the product
  is the sum over the 128 features k of block[p, k] · weight[k, q]: the operand indices the contraction walks are
  (p, k) and (k, q), and the sum over the contraction's one axis is re-indexed to a sum over k = 0 … 127.
-/
import proofs.«178498_j59657095741758_1_alg».proof.Proof.Gen.KernelIdeal.Frame
import proofs.«178498_j59657095741758_1_alg».proof.Proof.Layer
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx

/-- The left operand's index at output index i and contraction index c: its row is i's row … -/
theorem lhs_row_128 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and its column is the contraction index. -/
theorem lhs_col_128 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row is the contraction index … -/
theorem rhs_row_128 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- … and its column is i's column. -/
theorem rhs_col_128 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix into the zero accumulator, read at (p, q): row p of the block against
    column q of the matrix, the plain sum of the 128 products. -/
theorem matmul_zero_128 (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = Cert.Layer.rowDot (R := 5000) (n := 128) A B p q := by
  refine (Ideal.matmul_constant_zero_apply dot_S5000x128_S128x128_S5000x128_1_0_0_1_n_n none A B (ix2 p q)).trans ?_
  rw [← Equiv.sum_comp (ValueIdx.contrEquiv1 dot_S5000x128_S128x128_S5000x128_1_0_0_1_n_n 128 rfl rfl).symm]
  unfold Cert.Layer.rowDot
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row_128 _ _
    | ⟨1, _⟩ => exact (lhs_col_128 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row_128 _ _).trans hk
    | ⟨1, _⟩ => exact rhs_col_128 _ _)
  rw [el, er]

/-- The left operand's index at output index i and contraction index c: its row is i's row … -/
theorem lhs_row_32 (i : S5000x32.Idx) (c : dot_S5000x128_S128x32_S5000x32_1_0_0_1_n_n.contr.Idx) :
    (dot_S5000x128_S128x32_S5000x32_1_0_0_1_n_n.lhsIdx i c 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- … and its column is the contraction index. -/
theorem lhs_col_32 (i : S5000x32.Idx) (c : dot_S5000x128_S128x32_S5000x32_1_0_0_1_n_n.contr.Idx) :
    (dot_S5000x128_S128x32_S5000x32_1_0_0_1_n_n.lhsIdx i c 1).val = (c ⟨0, by decide⟩).val :=
  dot_S5000x128_S128x32_S5000x32_1_0_0_1_n_n.lhsIdx_val_of_single rfl i c
/-- The right operand's row is the contraction index … -/
theorem rhs_row_32 (i : S5000x32.Idx) (c : dot_S5000x128_S128x32_S5000x32_1_0_0_1_n_n.contr.Idx) :
    (dot_S5000x128_S128x32_S5000x32_1_0_0_1_n_n.rhsIdx i c 0).val = (c ⟨0, by decide⟩).val :=
  dot_S5000x128_S128x32_S5000x32_1_0_0_1_n_n.rhsIdx_val_of_single rfl i c
/-- … and its column is i's column. -/
theorem rhs_col_32 (i : S5000x32.Idx) (c : dot_S5000x128_S128x32_S5000x32_1_0_0_1_n_n.contr.Idx) :
    (dot_S5000x128_S128x32_S5000x32_1_0_0_1_n_n.rhsIdx i c 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- A 5000 × 128 block times a 128 × 32 matrix into the zero accumulator, read at (p, q): row p of the block against
    column q of the matrix, the plain sum of the 128 products. -/
theorem matmul_zero_32 (A : FVec Ideal S5000x128 .bf16) (B : FVec Ideal S128x32 .bf16) (p : Fin 5000) (q : Fin 32) :
    matmul dot_S5000x128_S128x32_S5000x32_1_0_0_1_n_n none A B (constant S5000x32 .f32 0x00000000#32) (ix2 p q)
      = Cert.Layer.rowDot (R := 5000) (n := 32) A B p q := by
  refine (Ideal.matmul_constant_zero_apply dot_S5000x128_S128x32_S5000x32_1_0_0_1_n_n none A B (ix2 p q)).trans ?_
  rw [← Equiv.sum_comp (ValueIdx.contrEquiv1 dot_S5000x128_S128x32_S5000x32_1_0_0_1_n_n 128 rfl rfl).symm]
  unfold Cert.Layer.rowDot
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx (ix2 p q) ((ValueIdx.contrEquiv1 dot_S5000x128_S128x32_S5000x32_1_0_0_1_n_n 128 rfl rfl).symm k) = ix2 p k := funext fun a => Fin.ext (by
    match a with
    | ⟨0, _⟩ => exact lhs_row_32 _ _
    | ⟨1, _⟩ => exact (lhs_col_32 _ _).trans hk)
  have er : dot_S5000x128_S128x32_S5000x32_1_0_0_1_n_n.rhsIdx (ix2 p q) ((ValueIdx.contrEquiv1 dot_S5000x128_S128x32_S5000x32_1_0_0_1_n_n 128 rfl rfl).symm k) = ix2 k q := funext fun a => Fin.ext (by
    match a with
    | ⟨0, _⟩ => exact (rhs_row_32 _ _).trans hk
    | ⟨1, _⟩ => exact rhs_col_32 _ _)
  rw [el, er]

end Cert.KernelIdeal.RegionValue

end
-- ==== Proof.RegionValuePay0.lean ====
/-
  Region 0: the value the body stores, read entry by entry.

  At a grid point the body holds a block of 5000 rows of each of the three terms, the three weight matrices and the bias
  row.  It narrows each operand (the identity on the extended reals), multiplies each term's block by its weight matrix
  into an accumulator of zeros, adds the three products left to right, adds the bias row to every row, and takes
  the maximum with zero.  So entry (p, q) of what it stores is the layer's formula on the rows p of the three blocks:
  max ( Σ_k T0[p,k]·W0[k,q] + Σ_k T1[p,k]·W1[k,q] + Σ_k T2[p,k]·W2[k,q] + b[0,q] , 0 ).
-/
import proofs.«178498_j59657095741758_1_alg».proof.Proof.Gen.KernelIdeal.Frame
import proofs.«178498_j59657095741758_1_alg».proof.Proof.Layer
import proofs.«178498_j59657095741758_1_alg».proof.Proof.RegionValueMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx

/-- Entry (p, q) of the stored block is the layer's formula on rows p of the three term blocks. -/
theorem pay0_apply (x0 x1 x2 : Vec Ideal S5000x128 .f32) (x3 x4 x5 : Vec Ideal S128x128 .f32) (x6 : Vec Ideal S1x128 .f32)
    (p : Fin 5000) (q : Fin 128) :
    k0_pay1 x0 x1 x2 x3 x4 x5 x6 (ix2 p q) = Cert.Layer.relu (R := 5000) (n := 128) x0 x1 x2 x3 x4 x5 x6 (ix2 p q) := by
  unfold k0_pay1
  simp only [shapeCast_self]
  rw [maximumf_apply, addf_apply, addf_apply, addf_apply, matmul_zero_128, matmul_zero_128, matmul_zero_128,
    broadcastTo_1b_ab_apply]
  rfl

end Cert.KernelIdeal.RegionValue

end
-- ==== Proof.RegionValueBlocks0.lean ====
/-
  Region 0 of the program (the first graph-convolution layer's dense combine), the blocks its ten grid points see.

  The three term arrays and the result array have 50000 rows and are cut into ten blocks of 5000 consecutive rows, one
  per grid point: entry (p, k) of the block at point t is entry (5000·t + p, k) of the array.  The three weight matrices
  and the bias row are not cut: their block at every point is the whole array.  A block's coordinate on an axis is always
  (block index) × (block size) + 1 × (coordinate inside the block); the block indices are read off the index maps once,
  over the ten points.  Every point writes its block of the result back, and the ten blocks cover the result array:
  row i lies in the block of point i / 5000.
-/
import proofs.«178498_j59657095741758_1_alg».proof.Proof.Gen.KernelIdeal.Frame
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The grid of region 0 has ten points. -/
theorem points0 : ∀ t : Fin cfg0.N, t.val < 10 := (by decide +kernel : ∀ t : Fin grid0.N, _)

/-- The block indices of the three terms and of the result over the grid: block row t, block column 0. -/
theorem index0_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0 :=
  (by decide +kernel : ∀ t : Fin grid0.N, _)

/-- The block indices of the three weight matrices and of the bias row over the grid: always block (0, 0). -/
theorem index0_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Entry (p, k) of the first term's block at point t is entry (5000·t + p, k) of its array. -/
theorem term0_0_rows (c : Dev nD) (t : Fin cfg0.N) (p : Fin 5000) (k : Fin 128) (i : Fin 50000)
    (hi : i.val = t.val * 5000 + p.val) :
    (iblk0 V c 0 t : S5000x128.Idx → EReal) (ix2 p k) = (V c (Pipeline.arrRef spec0 0) : S50000x128.Idx → EReal) (ix2 i k) := by
  obtain ⟨a0, a1, b0, b1, c0, c1, -⟩ := index0_rows t
  show V c (Pipeline.arrRef spec0 0) (((cfg0.win 0).blk t).view.emb (ix2 p k)) = V c (Pipeline.arrRef spec0 0) (ix2 i k)
  refine congrArg (V c (Pipeline.arrRef spec0 0)) (funext fun a => Fin.ext ?_)
  match a with
  | ⟨0, _⟩ => show win0_0.index t (0 : Fin 2) * 5000 + 1 * p.val = i.val; omega
  | ⟨1, _⟩ => show win0_0.index t (1 : Fin 2) * 128 + 1 * k.val = k.val; omega

/-- Entry (p, k) of the second term's block at point t is entry (5000·t + p, k) of its array. -/
theorem term0_1_rows (c : Dev nD) (t : Fin cfg0.N) (p : Fin 5000) (k : Fin 128) (i : Fin 50000)
    (hi : i.val = t.val * 5000 + p.val) :
    (iblk0 V c 1 t : S5000x128.Idx → EReal) (ix2 p k) = (V c (Pipeline.arrRef spec0 1) : S50000x128.Idx → EReal) (ix2 i k) := by
  obtain ⟨a0, a1, b0, b1, c0, c1, -⟩ := index0_rows t
  show V c (Pipeline.arrRef spec0 1) (((cfg0.win 1).blk t).view.emb (ix2 p k)) = V c (Pipeline.arrRef spec0 1) (ix2 i k)
  refine congrArg (V c (Pipeline.arrRef spec0 1)) (funext fun a => Fin.ext ?_)
  match a with
  | ⟨0, _⟩ => show win0_1.index t (0 : Fin 2) * 5000 + 1 * p.val = i.val; omega
  | ⟨1, _⟩ => show win0_1.index t (1 : Fin 2) * 128 + 1 * k.val = k.val; omega

/-- Entry (p, k) of the third term's block at point t is entry (5000·t + p, k) of its array. -/
theorem term0_2_rows (c : Dev nD) (t : Fin cfg0.N) (p : Fin 5000) (k : Fin 128) (i : Fin 50000)
    (hi : i.val = t.val * 5000 + p.val) :
    (iblk0 V c 2 t : S5000x128.Idx → EReal) (ix2 p k) = (V c (Pipeline.arrRef spec0 2) : S50000x128.Idx → EReal) (ix2 i k) := by
  obtain ⟨a0, a1, b0, b1, c0, c1, -⟩ := index0_rows t
  show V c (Pipeline.arrRef spec0 2) (((cfg0.win 2).blk t).view.emb (ix2 p k)) = V c (Pipeline.arrRef spec0 2) (ix2 i k)
  refine congrArg (V c (Pipeline.arrRef spec0 2)) (funext fun a => Fin.ext ?_)
  match a with
  | ⟨0, _⟩ => show win0_2.index t (0 : Fin 2) * 5000 + 1 * p.val = i.val; omega
  | ⟨1, _⟩ => show win0_2.index t (1 : Fin 2) * 128 + 1 * k.val = k.val; omega

/-- The first weight matrix's block at every point is the whole matrix. -/
theorem weight0_3 (c : Dev nD) (t : Fin cfg0.N) :
    (iblk0 V c 3 t : S128x128.Idx → EReal) = (V c (Pipeline.arrRef spec0 3) : S128x128.Idx → EReal) := by
  obtain ⟨a0, a1, b0, b1, c0, c1, d0, d1⟩ := index0_whole t
  funext j
  show V c (Pipeline.arrRef spec0 3) (((cfg0.win 3).blk t).view.emb j) = V c (Pipeline.arrRef spec0 3) j
  refine congrArg (V c (Pipeline.arrRef spec0 3)) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The second weight matrix's block at every point is the whole matrix. -/
theorem weight0_4 (c : Dev nD) (t : Fin cfg0.N) :
    (iblk0 V c 4 t : S128x128.Idx → EReal) = (V c (Pipeline.arrRef spec0 4) : S128x128.Idx → EReal) := by
  obtain ⟨a0, a1, b0, b1, c0, c1, d0, d1⟩ := index0_whole t
  funext j
  show V c (Pipeline.arrRef spec0 4) (((cfg0.win 4).blk t).view.emb j) = V c (Pipeline.arrRef spec0 4) j
  refine congrArg (V c (Pipeline.arrRef spec0 4)) (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- The third weight matrix's block at every point is the whole matrix. -/
theorem weight0_5 (c : Dev nD) (t : Fin cfg0.N) :
    (iblk0 V c 5 t : S128x128.Idx → EReal) = (V c (Pipeline.arrRef spec0 5) : S128x128.Idx → EReal) := by
  obtain ⟨a0, a1, b0, b1, c0, c1, d0, d1⟩ := index0_whole t
  funext j
  show V c (Pipeline.arrRef spec0 5) (((cfg0.win 5).blk t).view.emb j) = V c (Pipeline.arrRef spec0 5) j
  refine congrArg (V c (Pipeline.arrRef spec0 5)) (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- The bias row's block at every point is the whole row. -/
theorem bias0 (c : Dev nD) (t : Fin cfg0.N) :
    (iblk0 V c 6 t : S1x128.Idx → EReal) = (V c (Pipeline.arrRef spec0 6) : S1x128.Idx → EReal) := by
  obtain ⟨a0, a1, b0, b1, c0, c1, d0, d1⟩ := index0_whole t
  funext j
  show V c (Pipeline.arrRef spec0 6) (((cfg0.win 6).blk t).view.emb j) = V c (Pipeline.arrRef spec0 6) j
  refine congrArg (V c (Pipeline.arrRef spec0 6)) (funext fun a => Fin.ext ?_)
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Entry (p, q) of the result's block at point t sits at entry (5000·t + p, q) of the result array. -/
theorem result0_rows (t : Fin cfg0.N) (p : Fin 5000) (q : Fin 128) (i : Fin 50000) (hi : i.val = t.val * 5000 + p.val) :
    (((cfg0.win 7).blk t).view.emb (ix2 p q) : S50000x128.Idx) = ix2 i q := by
  obtain ⟨-, -, -, -, -, -, d0, d1⟩ := index0_rows t
  refine funext fun a => Fin.ext ?_
  match a with
  | ⟨0, _⟩ => show win0_7.index t (0 : Fin 2) * 5000 + 1 * p.val = i.val; omega
  | ⟨1, _⟩ => show win0_7.index t (1 : Fin 2) * 128 + 1 * q.val = q.val; omega

/-- The block point t writes back, given row by row: if a block X of 5000 rows has, at every (p, q), the entry (5000·t + p, q)
    of a whole array G, then X is what reading block t of G gives. -/
theorem block0_of_rows (t : Fin cfg0.N) (X : S5000x128.Idx → EReal) (G : S50000x128.Idx → EReal)
    (h : ∀ (p : Fin 5000) (q : Fin 128) (i : Fin 50000), i.val = t.val * 5000 + p.val → X (ix2 p q) = G (ix2 i q)) :
    (cfg0.win 7).cut (grid0.coords t) X = ((cfg0.win 7).blk t).view.read (Elt Ideal) G := by
  have ht := points0 t
  show X = fun j : S5000x128.Idx => G (((cfg0.win 7).blk t).view.emb j)
  funext j
  obtain ⟨p, q, rfl⟩ : ∃ (p : Fin 5000) (q : Fin 128), j = ix2 p q := ⟨j 0, j 1, eq_ix2 j⟩
  show X (ix2 p q) = G (((cfg0.win 7).blk t).view.emb (ix2 p q))
  rw [result0_rows t p q ⟨t.val * 5000 + p.val, by omega⟩ rfl]
  exact h p q _ rfl

/-- An index of the result array is in point t's block iff each coordinate is in the block's range on its axis. -/
theorem mem_block0 (t : Fin cfg0.N) (i : S50000x128.Idx) :
    i ∈ ((cfg0.win 7).blk t).view.set
      ↔ ∀ a : Fin 2, win0_7.index t a * S5000x128.size a ≤ (i a).val ∧ (i a).val < win0_7.index t a * S5000x128.size a + S5000x128.size a := by
  show i ∈ ((View.whole main_v66).slice (win0_7.rect t)).set ↔ _
  rw [View.set_slice_whole, Rect.mem_set_unit]
  exact Iff.rfl

/-- The ten blocks cover the result array: row i lies in the block of point i / 5000, which is written back. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨-, -, -, -, -, -, d0, d1⟩ := index0_rows t
  refine ⟨t, flush0_7 t, ?_⟩
  rw [mem_block0]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

end Cert.KernelIdeal.RegionValue

end
-- ==== Proof.RegionValue0.lean ====
/-
  Region 0: the result array after the region has run is the first layer's formula on the arrays the region found.

  Each of the ten grid points stores, into its block of the result, the layer's formula on the rows of the term blocks it
  holds (the stored value, entry by entry); those rows are rows 5000·t … 5000·t + 4999 of the term arrays and the weights
  and the bias row it holds are the whole arrays (the blocks), so what point t writes back is block t of ONE whole-array
  function: the layer applied to the three term arrays, the three weight matrices and the bias row as the region found
  them.  The ten blocks cover the result array, so after the region it holds that function everywhere.
-/
import proofs.«178498_j59657095741758_1_alg».proof.Proof.Gen.KernelIdeal.Frame
import proofs.«178498_j59657095741758_1_alg».proof.Proof.Layer
import proofs.«178498_j59657095741758_1_alg».proof.Proof.RegionValuePay0
import proofs.«178498_j59657095741758_1_alg».proof.Proof.RegionValueBlocks0
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of every access in the body: zero on both axes. -/
theorem origin0 : (![0, 0] : Fin 2 → Nat) = fun _ => 0 := funext fun a => by fin_cases a <;> rfl

/-- The layer on the arrays the region found: the whole-array function the result array ends holding. -/
def layer0 (c : Dev nD) : S50000x128.Idx → EReal :=
  Cert.Layer.relu (R := 50000) (n := 128) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))

/-- A block of rows of the layer's result, with the weights and the bias row given as the blocks a point holds: entry
    (p, j) of the block is entry (i, j) of the whole result when the blocks of the terms are rows i of the terms and the
    blocks of the weights and of the bias row are the whole arrays. -/
theorem relu_block0 (T0 T1 T2 : S50000x128.Idx → EReal) (T0' T1' T2' : S5000x128.Idx → EReal)
    (W0 W1 W2 W0' W1' W2' : S128x128.Idx → EReal) (b b' : S1x128.Idx → EReal) (i : Fin 50000) (p : Fin 5000) (j : Fin 128)
    (h0 : ∀ k, T0' (ix2 p k) = T0 (ix2 i k)) (h1 : ∀ k, T1' (ix2 p k) = T1 (ix2 i k)) (h2 : ∀ k, T2' (ix2 p k) = T2 (ix2 i k))
    (hW0 : W0' = W0) (hW1 : W1' = W1) (hW2 : W2' = W2) (hb : b' = b) :
    Cert.Layer.relu (R := 5000) (n := 128) T0' T1' T2' W0' W1' W2' b' (ix2 p j)
      = Cert.Layer.relu (R := 50000) (n := 128) T0 T1 T2 W0 W1 W2 b (ix2 i j) := by
  subst hW0 hW1 hW2 hb
  exact Cert.Layer.relu_rows T0 T1 T2 T0' T1' T2' W0' W1' W2' b' i p j h0 h1 h2

/-- Entry (p, q) of what point t stores is entry (5000·t + p, q) of the layer on the whole arrays. -/
theorem stored0_rows (c : Dev nD) (t : Fin cfg0.N) (p : Fin 5000) (q : Fin 128) (i : Fin 50000)
    (hi : i.val = t.val * 5000 + p.val) :
    k0_pay1 (iblk0 V c 0 t) (iblk0 V c 1 t) (iblk0 V c 2 t) (iblk0 V c 3 t) (iblk0 V c 4 t) (iblk0 V c 5 t) (iblk0 V c 6 t) (ix2 p q) = layer0 V c (ix2 i q) := by
  unfold layer0
  refine (pay0_apply (iblk0 V c 0 t) (iblk0 V c 1 t) (iblk0 V c 2 t) (iblk0 V c 3 t) (iblk0 V c 4 t) (iblk0 V c 5 t) (iblk0 V c 6 t) p q).trans ?_
  exact relu_block0 (V c (Pipeline.arrRef spec0 0)) (V c (Pipeline.arrRef spec0 1)) (V c (Pipeline.arrRef spec0 2)) (iblk0 V c 0 t) (iblk0 V c 1 t) (iblk0 V c 2 t)
    (V c (Pipeline.arrRef spec0 3)) (V c (Pipeline.arrRef spec0 4)) (V c (Pipeline.arrRef spec0 5)) (iblk0 V c 3 t) (iblk0 V c 4 t) (iblk0 V c 5 t) (V c (Pipeline.arrRef spec0 6)) (iblk0 V c 6 t) i p q
    (fun k => term0_0_rows V c t p k i hi) (fun k => term0_1_rows V c t p k i hi) (fun k => term0_2_rows V c t p k i hi)
    (weight0_3 V c t) (weight0_4 V c t) (weight0_5 V c t) (bias0 V c t)

/-- What point t writes back is block t of the layer on the whole arrays. -/
theorem flushed0 (c : Dev nD) (t : Fin cfg0.N) :
    (dat0 (F := Ideal) V c).flushed 7 t = ((cfg0.win 7).blk t).view.read (Elt Ideal) (layer0 V c) := by
  show (cfg0.win 7).cut (grid0.coords t) ((dat0 V c).after 7 t) = _
  rw [after0_7]
  unfold out0_7
  rw [View.canon_unit_zero origin0]
  simp only [View.ld_unit_zero (S := S5000x128) origin0, View.ld_unit_zero (S := S128x128) origin0, View.ld_unit_zero (S := S1x128) origin0]
  exact block0_of_rows t (k0_pay1 (iblk0 V c 0 t) (iblk0 V c 1 t) (iblk0 V c 2 t) (iblk0 V c 3 t) (iblk0 V c 4 t) (iblk0 V c 5 t) (iblk0 V c 6 t)) (layer0 V c)
    (fun p q i hi => stored0_rows V c t p q i hi)

/-- The result array after region 0: the layer applied to the three term arrays, the three weight matrices and the bias
    row as the region found them. -/
theorem region0 (c : Dev nD) :
    ((dat0 (F := Ideal) V c).arrAt 7 cfg0.N : S50000x128.Idx → EReal)
      = Cert.Layer.relu (R := 50000) (n := 128) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 (F := Ideal) V c).arrAt_eq_of_cover 7 (layer0 V c) (fun t _ => flushed0 V c t) cover0

end Cert.KernelIdeal.RegionValue

end
-- ==== Proof.RefLayer1.lean ====
/-
  The reference's first layer, read entry by entry, is the dense combine of Layer.lean.

  Entry (r, j) of the reference's result is

      max ( pre[r,j], 0 )    with
      pre[r,j] = ((Σ_k T0[r,k]·W0[k,j] + Σ_k T1[r,k]·W1[k,j]) + Σ_k T2[r,k]·W2[k,j]) + b[0,j]

  where each contraction is a sum over the 128 features, the three are added left to right, and the bias, a row of
  128 entries, is repeated along the 50000 rows.  The zero of the maximum is the single-precision zero word's value,
  the same word on both sides, so its value is never needed.

  The proof reads every operation of the chain at the index (r, j) and identifies the indices at which the operands
  are read: the left factor of a contraction at (r, k), the right factor at (k, j), the bias row at (0, j).  The three
  terms T0, T1, T2 and the three weight matrices stay unopened.
-/
import proofs.«178498_j59657095741758_1_alg».proof.Proof.RefRead
import proofs.«178498_j59657095741758_1_alg».proof.Proof.Layer

noncomputable section

namespace Cert.ReferenceIdeal.RefLayer

open Cert.ReferenceIdeal Cert.ReferenceIdeal.ReadP Idealize.ShloMosaic Idealize.ShloMosaic.ValueIdx

/-- The left factor of contraction 32 at entry (r, j), summand k, is read at (r, k). -/
theorem lidx32 (r : Fin 50000) (j k : Fin 128) : lidx_main_v32 (ix2 r j) k = ix2 r k :=
  funext fun a => Fin.ext (by match a with | ⟨0, _⟩ => rfl | ⟨1, _⟩ => rfl)
/-- The right factor of contraction 32 at entry (r, j), summand k, is read at (k, j). -/
theorem ridx32 (r : Fin 50000) (j k : Fin 128) : ridx_main_v32 (ix2 r j) k = ix2 k j :=
  funext fun a => Fin.ext (by match a with | ⟨0, _⟩ => rfl | ⟨1, _⟩ => rfl)
/-- The left factor of contraction 48 at entry (r, j), summand k, is read at (r, k). -/
theorem lidx48 (r : Fin 50000) (j k : Fin 128) : lidx_main_v48 (ix2 r j) k = ix2 r k :=
  funext fun a => Fin.ext (by match a with | ⟨0, _⟩ => rfl | ⟨1, _⟩ => rfl)
/-- The right factor of contraction 48 at entry (r, j), summand k, is read at (k, j). -/
theorem ridx48 (r : Fin 50000) (j k : Fin 128) : ridx_main_v48 (ix2 r j) k = ix2 k j :=
  funext fun a => Fin.ext (by match a with | ⟨0, _⟩ => rfl | ⟨1, _⟩ => rfl)
/-- The left factor of contraction 68 at entry (r, j), summand k, is read at (r, k). -/
theorem lidx68 (r : Fin 50000) (j k : Fin 128) : lidx_main_v68 (ix2 r j) k = ix2 r k :=
  funext fun a => Fin.ext (by match a with | ⟨0, _⟩ => rfl | ⟨1, _⟩ => rfl)
/-- The right factor of contraction 68 at entry (r, j), summand k, is read at (k, j). -/
theorem ridx68 (r : Fin 50000) (j k : Fin 128) : ridx_main_v68 (ix2 r j) k = ix2 k j :=
  funext fun a => Fin.ext (by match a with | ⟨0, _⟩ => rfl | ⟨1, _⟩ => rfl)
/-- The bias row repeated along the rows is read, at entry (r, j), at (0, j). -/
theorem idx71 (r : Fin 50000) (j : Fin 128) : idx_main_v71 (ix2 r j) = ix2 0 j :=
  funext fun a => Fin.ext (by match a with | ⟨0, _⟩ => rfl | ⟨1, _⟩ => rfl)

/-- The reference's first layer is the hidden layer of the node features and its two further terms. -/
theorem layer1 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S128, .f32⟩ : BufTy).Contents (Elt Ideal)) :
    val_main_v73 (F := Ideal) x0 x1 x2 x3
      = Cert.Layer.relu x0 (val_main_v45 (F := Ideal) x0 x1) (val_main_v65 (F := Ideal) x0 x1)
          (val_main_v31 (F := Ideal) x2) (val_main_v47 (F := Ideal) x2) (val_main_v67 (F := Ideal) x2)
          (val_main_v70 (F := Ideal) x3) := by
  funext i
  obtain ⟨r, j, rfl⟩ : ∃ (r : Fin 50000) (j : Fin 128), i = ix2 r j := ⟨i 0, i 1, eq_ix2 i⟩
  show _ = max (Cert.Layer.pre x0 (val_main_v45 (F := Ideal) x0 x1) (val_main_v65 (F := Ideal) x0 x1)
      (val_main_v31 (F := Ideal) x2) (val_main_v47 (F := Ideal) x2) (val_main_v67 (F := Ideal) x2)
      (val_main_v70 (F := Ideal) x3) r j) (Ideal.ofBits .f32 0x00000000#32)
  rw [val_main_v73_apply, val_main_v72_apply, val_main_v69_apply, val_main_v49_apply, val_main_v32_apply,
    val_main_v48_apply, val_main_v68_apply, val_main_v71_apply, val_main_call1_v0_apply, val_main_call1_cst_apply]
  unfold Cert.Layer.pre Cert.Layer.rowDot
  simp only [lidx32, ridx32, lidx48, ridx48, lidx68, ridx68, idx71, Ideal.addf_def, Ideal.maximumf_def, Ideal.ofBits_def]

end Cert.ReferenceIdeal.RefLayer

end
-- ==== Proof.LibCongr.lean ====
/-
  A function of seven arguments takes equal values at equal arguments.
-/

namespace Cert.LibCongr

/-- Congruence for a function of seven arguments, each argument replaced by an equal one. -/
theorem congr7 {α0 α1 α2 α3 α4 α5 α6 β : Sort _} (f : α0 → α1 → α2 → α3 → α4 → α5 → α6 → β)
    {a0 b0 : α0} {a1 b1 : α1} {a2 b2 : α2} {a3 b3 : α3} {a4 b4 : α4} {a5 b5 : α5} {a6 b6 : α6}
    (h0 : a0 = b0) (h1 : a1 = b1) (h2 : a2 = b2) (h3 : a3 = b3) (h4 : a4 = b4) (h5 : a5 = b5) (h6 : a6 = b6) :
    f a0 a1 a2 a3 a4 a5 a6 = f b0 b1 b2 b3 b4 b5 b6 := by
  subst h0 h1 h2 h3 h4 h5 h6; rfl

end Cert.LibCongr
-- ==== Proof.Layer1Value.lean ====
/-
  The first layer's result.

  Region 0 leaves in its output array the hidden layer's function (entry by entry: the three Chebyshev terms against
  their weight matrices, summed left to right, plus the bias, then the maximum with zero) of the seven arrays it found.
  Those seven arrays are the reference's stages for them, and the reference's own chain for the layer — three
  contractions, two sums, the bias broadcast over the rows, the maximum with zero — is the same function of the same
  seven arrays. So the array region 0 leaves is the reference's first hidden layer.
-/
import proofs.«178498_j59657095741758_1_alg».proof.Proof.HostRead0
import proofs.«178498_j59657095741758_1_alg».proof.Proof.RegionValue0
import proofs.«178498_j59657095741758_1_alg».proof.Proof.RefLayer1
import proofs.«178498_j59657095741758_1_alg».proof.Proof.LibCongr
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 2000000 in
/-- At region 0's exit its output array holds the reference's first hidden layer. -/
theorem h1_at4 : W4 m ρ c (Proc.devRef .tc main_v66)
    = Cert.ReferenceIdeal.ReadP.val_main_v73 (F := Ideal) (m ((c.tc : Thread nD τ).loc main_arg0)) (m ((c.tc : Thread nD τ).loc main_arg1)) (m ((c.tc : Thread nD τ).loc main_arg2)) (m ((c.tc : Thread nD τ).loc main_arg3)) :=
  (W4_arr m ρ c 7).trans <| (Cert.KernelIdeal.RegionValue.region0 (V3 m ρ) c).trans <|
    (Cert.LibCongr.congr7 (Cert.Layer.relu (R := 50000) (n := 128)) (arg0_at3 m ρ c) (T1_at3 m ρ c) (T2_at3 m ρ c) (W0_at3 m ρ c) (W1_at3 m ρ c) (W2_at3 m ρ c) (b_at3 m ρ c)).trans
      (Cert.ReferenceIdeal.RefLayer.layer1 _ _ _ _).symm

end Cert.KernelIdeal.HostValue

end
-- ==== Proof.HostRead1.lean ====
/-
  What region 1 finds in its arrays.

  Between the first and the second dense combine the program computes, from the first layer's result h, by the same host
  operations as before: the Chebyshev terms L·h and 2·L·(L·h) - h over the same edge list and edge weights, the second
  layer's three weight matrices and its bias row. Given that the first layer's result is the reference's (the module
  before this one), each array region 1 finds is the reference's stage for it; the only differences are again the order
  of the product inside L and the layout operation that makes the bias row.
-/
import proofs.«178498_j59657095741758_1_alg».proof.Proof.Layer1Value
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's result, untouched by the stretch. -/
theorem T0_at5 : W5 m ρ c (Proc.devRef .tc main_v66)
    = Cert.ReferenceIdeal.ReadP.val_main_v73 (F := Ideal) (m ((c.tc : Thread nD τ).loc main_arg0)) (m ((c.tc : Thread nD τ).loc main_arg1)) (m ((c.tc : Thread nD τ).loc main_arg2)) (m ((c.tc : Thread nD τ).loc main_arg3)) := by
  after_results_simp
  simp only [h1_at4 m ρ c, v1_at4 m ρ c, v3_at4 m ρ c, v29_at4 m ρ c, arg_at4 m ρ c main_arg4 (.inl rfl), arg_at4 m ρ c main_arg5 (.inr (.inl rfl))] <;> rfl

/-- Its first Chebyshev term. -/
theorem T1_at5 : W5 m ρ c (Proc.devRef .tc main_v79)
    = Cert.ReferenceIdeal.ReadP.val_main_v89 (F := Ideal) (m ((c.tc : Thread nD τ).loc main_arg0)) (m ((c.tc : Thread nD τ).loc main_arg1)) (m ((c.tc : Thread nD τ).loc main_arg2)) (m ((c.tc : Thread nD τ).loc main_arg3)) := by
  after_results_simp
  simp only [h1_at4 m ρ c, v1_at4 m ρ c, v3_at4 m ρ c, v29_at4 m ρ c, arg_at4 m ρ c main_arg4 (.inl rfl), arg_at4 m ρ c main_arg5 (.inr (.inl rfl)), gather_mul_comm] <;> rfl

/-- Its second Chebyshev term. -/
theorem T2_at5 : W5 m ρ c (Proc.devRef .tc main_v95)
    = Cert.ReferenceIdeal.ReadP.val_main_v109 (F := Ideal) (m ((c.tc : Thread nD τ).loc main_arg0)) (m ((c.tc : Thread nD τ).loc main_arg1)) (m ((c.tc : Thread nD τ).loc main_arg2)) (m ((c.tc : Thread nD τ).loc main_arg3)) := by
  after_results_simp
  simp only [h1_at4 m ρ c, v1_at4 m ρ c, v3_at4 m ρ c, v29_at4 m ρ c, arg_at4 m ρ c main_arg4 (.inl rfl), arg_at4 m ρ c main_arg5 (.inr (.inl rfl)), gather_mul_comm] <;> rfl

/-- The second layer's weight matrix of order 0. -/
theorem W0_at5 : W5 m ρ c (Proc.devRef .tc main_v97)
    = Cert.ReferenceIdeal.ReadP.val_main_v75 (F := Ideal) (m ((c.tc : Thread nD τ).loc main_arg4)) := by
  after_results_simp
  simp only [h1_at4 m ρ c, v1_at4 m ρ c, v3_at4 m ρ c, v29_at4 m ρ c, arg_at4 m ρ c main_arg4 (.inl rfl), arg_at4 m ρ c main_arg5 (.inr (.inl rfl))] <;> rfl

/-- The second layer's weight matrix of order 1. -/
theorem W1_at5 : W5 m ρ c (Proc.devRef .tc main_v99)
    = Cert.ReferenceIdeal.ReadP.val_main_v91 (F := Ideal) (m ((c.tc : Thread nD τ).loc main_arg4)) := by
  after_results_simp
  simp only [h1_at4 m ρ c, v1_at4 m ρ c, v3_at4 m ρ c, v29_at4 m ρ c, arg_at4 m ρ c main_arg4 (.inl rfl), arg_at4 m ρ c main_arg5 (.inr (.inl rfl))] <;> rfl

/-- The second layer's weight matrix of order 2. -/
theorem W2_at5 : W5 m ρ c (Proc.devRef .tc main_v101)
    = Cert.ReferenceIdeal.ReadP.val_main_v111 (F := Ideal) (m ((c.tc : Thread nD τ).loc main_arg4)) := by
  after_results_simp
  simp only [h1_at4 m ρ c, v1_at4 m ρ c, v3_at4 m ρ c, v29_at4 m ρ c, arg_at4 m ρ c main_arg4 (.inl rfl), arg_at4 m ρ c main_arg5 (.inr (.inl rfl))] <;> rfl

/-- The second layer's bias as a row. -/
theorem b_at5 : W5 m ρ c (Proc.devRef .tc main_v102)
    = Cert.ReferenceIdeal.ReadP.val_main_v114 (F := Ideal) (m ((c.tc : Thread nD τ).loc main_arg5)) := by
  after_results_simp
  simp only [arg_at4 m ρ c main_arg5 (.inr (.inl rfl))]
  exact Cert.LibVec.row_of_vec _ _ _ (by decide)

/-! ## What is carried to region 1's exit -/

theorem v1_at6 : W6 m ρ c (Proc.devRef .tc main_v1) = Cert.ReferenceIdeal.ReadP.val_main_v1 (F := Ideal) (m ((c.tc : Thread nD τ).loc main_arg1)) := by
  refine (W6_of_ne m ρ c main_v1 (by decide)).trans ?_
  after_results_simp
  exact v1_at4 m ρ c
theorem v3_at6 : W6 m ρ c (Proc.devRef .tc main_v3) = Cert.ReferenceIdeal.ReadP.val_main_v3 (F := Ideal) (m ((c.tc : Thread nD τ).loc main_arg1)) := by
  refine (W6_of_ne m ρ c main_v3 (by decide)).trans ?_
  after_results_simp
  exact v3_at4 m ρ c
theorem v29_at6 : W6 m ρ c (Proc.devRef .tc main_v29) = Cert.ReferenceIdeal.ReadP.val_main_v29 (F := Ideal) (m ((c.tc : Thread nD τ).loc main_arg1)) := by
  refine (W6_of_ne m ρ c main_v29 (by decide)).trans ?_
  after_results_simp
  exact v29_at4 m ρ c
theorem arg6_at6 : W6 m ρ c (Proc.devRef .tc main_arg6) = (m ((c.tc : Thread nD τ).loc main_arg6)) := by
  refine (W6_of_ne m ρ c main_arg6 (by decide)).trans ?_
  after_results_simp
  exact arg_at4 m ρ c main_arg6 (.inr (.inr (.inl rfl)))
theorem arg7_at6 : W6 m ρ c (Proc.devRef .tc main_arg7) = (m ((c.tc : Thread nD τ).loc main_arg7)) := by
  refine (W6_of_ne m ρ c main_arg7 (by decide)).trans ?_
  after_results_simp
  exact arg_at4 m ρ c main_arg7 (.inr (.inr (.inr rfl)))

end Cert.KernelIdeal.HostValue

end
-- ==== Proof.RegionValuePay1.lean ====
/-
  Region 1: the value the body stores, read entry by entry.

  At a grid point the body holds a block of 5000 rows of each of the three terms, the three weight matrices and the bias
  row.  It narrows each operand (the identity on the extended reals), multiplies each term's block by its weight matrix
  into an accumulator of zeros, adds the three products left to right, adds the bias row to every row, and takes
  the maximum with zero.  So entry (p, q) of what it stores is the layer's formula on the rows p of the three blocks:
  max ( Σ_k T0[p,k]·W0[k,q] + Σ_k T1[p,k]·W1[k,q] + Σ_k T2[p,k]·W2[k,q] + b[0,q] , 0 ).
-/
import proofs.«178498_j59657095741758_1_alg».proof.Proof.Gen.KernelIdeal.Frame
import proofs.«178498_j59657095741758_1_alg».proof.Proof.Layer
import proofs.«178498_j59657095741758_1_alg».proof.Proof.RegionValueMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx

/-- Entry (p, q) of the stored block is the layer's formula on rows p of the three term blocks. -/
theorem pay1_apply (x0 x1 x2 : Vec Ideal S5000x128 .f32) (x3 x4 x5 : Vec Ideal S128x128 .f32) (x6 : Vec Ideal S1x128 .f32)
    (p : Fin 5000) (q : Fin 128) :
    k1_pay1 x0 x1 x2 x3 x4 x5 x6 (ix2 p q) = Cert.Layer.relu (R := 5000) (n := 128) x0 x1 x2 x3 x4 x5 x6 (ix2 p q) := by
  unfold k1_pay1
  simp only [shapeCast_self]
  rw [maximumf_apply, addf_apply, addf_apply, addf_apply, matmul_zero_128, matmul_zero_128, matmul_zero_128,
    broadcastTo_1b_ab_apply]
  rfl

end Cert.KernelIdeal.RegionValue

end
-- ==== Proof.RegionValueBlocks1.lean ====
/-
  Region 1 of the program (the second graph-convolution layer's dense combine), the blocks its ten grid points see.

  The three term arrays and the result array have 50000 rows and are cut into ten blocks of 5000 consecutive rows, one
  per grid point: entry (p, k) of the block at point t is entry (5000·t + p, k) of the array.  The three weight matrices
  and the bias row are not cut: their block at every point is the whole array.  A block's coordinate on an axis is always
  (block index) × (block size) + 1 × (coordinate inside the block); the block indices are read off the index maps once,
  over the ten points.  Every point writes its block of the result back, and the ten blocks cover the result array:
  row i lies in the block of point i / 5000.
-/
import proofs.«178498_j59657095741758_1_alg».proof.Proof.Gen.KernelIdeal.Frame
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The grid of region 1 has ten points. -/
theorem points1 : ∀ t : Fin cfg1.N, t.val < 10 := (by decide +kernel : ∀ t : Fin grid1.N, _)

/-- The block indices of the three terms and of the result over the grid: block row t, block column 0. -/
theorem index1_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_7.index t (0 : Fin 2) = t.val ∧ win1_7.index t (1 : Fin 2) = 0 :=
  (by decide +kernel : ∀ t : Fin grid1.N, _)

/-- The block indices of the three weight matrices and of the bias row over the grid: always block (0, 0). -/
theorem index1_whole : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Entry (p, k) of the first term's block at point t is entry (5000·t + p, k) of its array. -/
theorem term1_0_rows (c : Dev nD) (t : Fin cfg1.N) (p : Fin 5000) (k : Fin 128) (i : Fin 50000)
    (hi : i.val = t.val * 5000 + p.val) :
    (iblk1 V c 0 t : S5000x128.Idx → EReal) (ix2 p k) = (V c (Pipeline.arrRef spec1 0) : S50000x128.Idx → EReal) (ix2 i k) := by
  obtain ⟨a0, a1, b0, b1, c0, c1, -⟩ := index1_rows t
  show V c (Pipeline.arrRef spec1 0) (((cfg1.win 0).blk t).view.emb (ix2 p k)) = V c (Pipeline.arrRef spec1 0) (ix2 i k)
  refine congrArg (V c (Pipeline.arrRef spec1 0)) (funext fun a => Fin.ext ?_)
  match a with
  | ⟨0, _⟩ => show win1_0.index t (0 : Fin 2) * 5000 + 1 * p.val = i.val; omega
  | ⟨1, _⟩ => show win1_0.index t (1 : Fin 2) * 128 + 1 * k.val = k.val; omega

/-- Entry (p, k) of the second term's block at point t is entry (5000·t + p, k) of its array. -/
theorem term1_1_rows (c : Dev nD) (t : Fin cfg1.N) (p : Fin 5000) (k : Fin 128) (i : Fin 50000)
    (hi : i.val = t.val * 5000 + p.val) :
    (iblk1 V c 1 t : S5000x128.Idx → EReal) (ix2 p k) = (V c (Pipeline.arrRef spec1 1) : S50000x128.Idx → EReal) (ix2 i k) := by
  obtain ⟨a0, a1, b0, b1, c0, c1, -⟩ := index1_rows t
  show V c (Pipeline.arrRef spec1 1) (((cfg1.win 1).blk t).view.emb (ix2 p k)) = V c (Pipeline.arrRef spec1 1) (ix2 i k)
  refine congrArg (V c (Pipeline.arrRef spec1 1)) (funext fun a => Fin.ext ?_)
  match a with
  | ⟨0, _⟩ => show win1_1.index t (0 : Fin 2) * 5000 + 1 * p.val = i.val; omega
  | ⟨1, _⟩ => show win1_1.index t (1 : Fin 2) * 128 + 1 * k.val = k.val; omega

/-- Entry (p, k) of the third term's block at point t is entry (5000·t + p, k) of its array. -/
theorem term1_2_rows (c : Dev nD) (t : Fin cfg1.N) (p : Fin 5000) (k : Fin 128) (i : Fin 50000)
    (hi : i.val = t.val * 5000 + p.val) :
    (iblk1 V c 2 t : S5000x128.Idx → EReal) (ix2 p k) = (V c (Pipeline.arrRef spec1 2) : S50000x128.Idx → EReal) (ix2 i k) := by
  obtain ⟨a0, a1, b0, b1, c0, c1, -⟩ := index1_rows t
  show V c (Pipeline.arrRef spec1 2) (((cfg1.win 2).blk t).view.emb (ix2 p k)) = V c (Pipeline.arrRef spec1 2) (ix2 i k)
  refine congrArg (V c (Pipeline.arrRef spec1 2)) (funext fun a => Fin.ext ?_)
  match a with
  | ⟨0, _⟩ => show win1_2.index t (0 : Fin 2) * 5000 + 1 * p.val = i.val; omega
  | ⟨1, _⟩ => show win1_2.index t (1 : Fin 2) * 128 + 1 * k.val = k.val; omega

/-- The first weight matrix's block at every point is the whole matrix. -/
theorem weight1_3 (c : Dev nD) (t : Fin cfg1.N) :
    (iblk1 V c 3 t : S128x128.Idx → EReal) = (V c (Pipeline.arrRef spec1 3) : S128x128.Idx → EReal) := by
  obtain ⟨a0, a1, b0, b1, c0, c1, d0, d1⟩ := index1_whole t
  funext j
  show V c (Pipeline.arrRef spec1 3) (((cfg1.win 3).blk t).view.emb j) = V c (Pipeline.arrRef spec1 3) j
  refine congrArg (V c (Pipeline.arrRef spec1 3)) (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- The second weight matrix's block at every point is the whole matrix. -/
theorem weight1_4 (c : Dev nD) (t : Fin cfg1.N) :
    (iblk1 V c 4 t : S128x128.Idx → EReal) = (V c (Pipeline.arrRef spec1 4) : S128x128.Idx → EReal) := by
  obtain ⟨a0, a1, b0, b1, c0, c1, d0, d1⟩ := index1_whole t
  funext j
  show V c (Pipeline.arrRef spec1 4) (((cfg1.win 4).blk t).view.emb j) = V c (Pipeline.arrRef spec1 4) j
  refine congrArg (V c (Pipeline.arrRef spec1 4)) (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- The third weight matrix's block at every point is the whole matrix. -/
theorem weight1_5 (c : Dev nD) (t : Fin cfg1.N) :
    (iblk1 V c 5 t : S128x128.Idx → EReal) = (V c (Pipeline.arrRef spec1 5) : S128x128.Idx → EReal) := by
  obtain ⟨a0, a1, b0, b1, c0, c1, d0, d1⟩ := index1_whole t
  funext j
  show V c (Pipeline.arrRef spec1 5) (((cfg1.win 5).blk t).view.emb j) = V c (Pipeline.arrRef spec1 5) j
  refine congrArg (V c (Pipeline.arrRef spec1 5)) (funext fun a => Fin.ext ?_)
  match a with
  | ⟨0, _⟩ => show win1_5.index t (0 : Fin 2) * 128 + 1 * (j 0).val = (j 0).val; omega
  | ⟨1, _⟩ => show win1_5.index t (1 : Fin 2) * 128 + 1 * (j 1).val = (j 1).val; omega

/-- The bias row's block at every point is the whole row. -/
theorem bias1 (c : Dev nD) (t : Fin cfg1.N) :
    (iblk1 V c 6 t : S1x128.Idx → EReal) = (V c (Pipeline.arrRef spec1 6) : S1x128.Idx → EReal) := by
  obtain ⟨a0, a1, b0, b1, c0, c1, d0, d1⟩ := index1_whole t
  funext j
  show V c (Pipeline.arrRef spec1 6) (((cfg1.win 6).blk t).view.emb j) = V c (Pipeline.arrRef spec1 6) j
  refine congrArg (V c (Pipeline.arrRef spec1 6)) (funext fun a => Fin.ext ?_)
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- Entry (p, q) of the result's block at point t sits at entry (5000·t + p, q) of the result array. -/
theorem result1_rows (t : Fin cfg1.N) (p : Fin 5000) (q : Fin 128) (i : Fin 50000) (hi : i.val = t.val * 5000 + p.val) :
    (((cfg1.win 7).blk t).view.emb (ix2 p q) : S50000x128.Idx) = ix2 i q := by
  obtain ⟨-, -, -, -, -, -, d0, d1⟩ := index1_rows t
  refine funext fun a => Fin.ext ?_
  match a with
  | ⟨0, _⟩ => show win1_7.index t (0 : Fin 2) * 5000 + 1 * p.val = i.val; omega
  | ⟨1, _⟩ => show win1_7.index t (1 : Fin 2) * 128 + 1 * q.val = q.val; omega

/-- The block point t writes back, given row by row: if a block X of 5000 rows has, at every (p, q), the entry (5000·t + p, q)
    of a whole array G, then X is what reading block t of G gives. -/
theorem block1_of_rows (t : Fin cfg1.N) (X : S5000x128.Idx → EReal) (G : S50000x128.Idx → EReal)
    (h : ∀ (p : Fin 5000) (q : Fin 128) (i : Fin 50000), i.val = t.val * 5000 + p.val → X (ix2 p q) = G (ix2 i q)) :
    (cfg1.win 7).cut (grid1.coords t) X = ((cfg1.win 7).blk t).view.read (Elt Ideal) G := by
  have ht := points1 t
  show X = fun j : S5000x128.Idx => G (((cfg1.win 7).blk t).view.emb j)
  funext j
  obtain ⟨p, q, rfl⟩ : ∃ (p : Fin 5000) (q : Fin 128), j = ix2 p q := ⟨j 0, j 1, eq_ix2 j⟩
  show X (ix2 p q) = G (((cfg1.win 7).blk t).view.emb (ix2 p q))
  rw [result1_rows t p q ⟨t.val * 5000 + p.val, by omega⟩ rfl]
  exact h p q _ rfl

/-- An index of the result array is in point t's block iff each coordinate is in the block's range on its axis. -/
theorem mem_block1 (t : Fin cfg1.N) (i : S50000x128.Idx) :
    i ∈ ((cfg1.win 7).blk t).view.set
      ↔ ∀ a : Fin 2, win1_7.index t a * S5000x128.size a ≤ (i a).val ∧ (i a).val < win1_7.index t a * S5000x128.size a + S5000x128.size a := by
  show i ∈ ((View.whole main_v103).slice (win1_7.rect t)).set ↔ _
  rw [View.set_slice_whole, Rect.mem_set_unit]
  exact Iff.rfl

/-- The ten blocks cover the result array: row i lies in the block of point i / 5000, which is written back. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; rw [hN]; omega⟩, rfl⟩
  obtain ⟨-, -, -, -, -, -, d0, d1⟩ := index1_rows t
  refine ⟨t, flush1_7 t, ?_⟩
  rw [mem_block1]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

end Cert.KernelIdeal.RegionValue

end
-- ==== Proof.RegionValue1.lean ====
/-
  Region 1: the result array after the region has run is the second layer's formula on the arrays the region found.

  Each of the ten grid points stores, into its block of the result, the layer's formula on the rows of the term blocks it
  holds (the stored value, entry by entry); those rows are rows 5000·t … 5000·t + 4999 of the term arrays and the weights
  and the bias row it holds are the whole arrays (the blocks), so what point t writes back is block t of ONE whole-array
  function: the layer applied to the three term arrays, the three weight matrices and the bias row as the region found
  them.  The ten blocks cover the result array, so after the region it holds that function everywhere.
-/
import proofs.«178498_j59657095741758_1_alg».proof.Proof.Gen.KernelIdeal.Frame
import proofs.«178498_j59657095741758_1_alg».proof.Proof.Layer
import proofs.«178498_j59657095741758_1_alg».proof.Proof.RegionValuePay1
import proofs.«178498_j59657095741758_1_alg».proof.Proof.RegionValueBlocks1
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of every access in the body: zero on both axes. -/
theorem origin1 : (![0, 0] : Fin 2 → Nat) = fun _ => 0 := funext fun a => by fin_cases a <;> rfl

/-- The layer on the arrays the region found: the whole-array function the result array ends holding. -/
def layer1 (c : Dev nD) : S50000x128.Idx → EReal :=
  Cert.Layer.relu (R := 50000) (n := 128) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))

/-- A block of rows of the layer's result, with the weights and the bias row given as the blocks a point holds: entry
    (p, j) of the block is entry (i, j) of the whole result when the blocks of the terms are rows i of the terms and the
    blocks of the weights and of the bias row are the whole arrays. -/
theorem relu_block1 (T0 T1 T2 : S50000x128.Idx → EReal) (T0' T1' T2' : S5000x128.Idx → EReal)
    (W0 W1 W2 W0' W1' W2' : S128x128.Idx → EReal) (b b' : S1x128.Idx → EReal) (i : Fin 50000) (p : Fin 5000) (j : Fin 128)
    (h0 : ∀ k, T0' (ix2 p k) = T0 (ix2 i k)) (h1 : ∀ k, T1' (ix2 p k) = T1 (ix2 i k)) (h2 : ∀ k, T2' (ix2 p k) = T2 (ix2 i k))
    (hW0 : W0' = W0) (hW1 : W1' = W1) (hW2 : W2' = W2) (hb : b' = b) :
    Cert.Layer.relu (R := 5000) (n := 128) T0' T1' T2' W0' W1' W2' b' (ix2 p j)
      = Cert.Layer.relu (R := 50000) (n := 128) T0 T1 T2 W0 W1 W2 b (ix2 i j) := by
  subst hW0 hW1 hW2 hb
  exact Cert.Layer.relu_rows T0 T1 T2 T0' T1' T2' W0' W1' W2' b' i p j h0 h1 h2

/-- Entry (p, q) of what point t stores is entry (5000·t + p, q) of the layer on the whole arrays. -/
theorem stored1_rows (c : Dev nD) (t : Fin cfg1.N) (p : Fin 5000) (q : Fin 128) (i : Fin 50000)
    (hi : i.val = t.val * 5000 + p.val) :
    k1_pay1 (iblk1 V c 0 t) (iblk1 V c 1 t) (iblk1 V c 2 t) (iblk1 V c 3 t) (iblk1 V c 4 t) (iblk1 V c 5 t) (iblk1 V c 6 t) (ix2 p q) = layer1 V c (ix2 i q) := by
  unfold layer1
  refine (pay1_apply (iblk1 V c 0 t) (iblk1 V c 1 t) (iblk1 V c 2 t) (iblk1 V c 3 t) (iblk1 V c 4 t) (iblk1 V c 5 t) (iblk1 V c 6 t) p q).trans ?_
  exact relu_block1 (V c (Pipeline.arrRef spec1 0)) (V c (Pipeline.arrRef spec1 1)) (V c (Pipeline.arrRef spec1 2)) (iblk1 V c 0 t) (iblk1 V c 1 t) (iblk1 V c 2 t)
    (V c (Pipeline.arrRef spec1 3)) (V c (Pipeline.arrRef spec1 4)) (V c (Pipeline.arrRef spec1 5)) (iblk1 V c 3 t) (iblk1 V c 4 t) (iblk1 V c 5 t) (V c (Pipeline.arrRef spec1 6)) (iblk1 V c 6 t) i p q
    (fun k => term1_0_rows V c t p k i hi) (fun k => term1_1_rows V c t p k i hi) (fun k => term1_2_rows V c t p k i hi)
    (weight1_3 V c t) (weight1_4 V c t) (weight1_5 V c t) (bias1 V c t)

/-- What point t writes back is block t of the layer on the whole arrays. -/
theorem flushed1 (c : Dev nD) (t : Fin cfg1.N) :
    (dat1 (F := Ideal) V c).flushed 7 t = ((cfg1.win 7).blk t).view.read (Elt Ideal) (layer1 V c) := by
  show (cfg1.win 7).cut (grid1.coords t) ((dat1 V c).after 7 t) = _
  rw [after1_7]
  unfold out1_7
  rw [View.canon_unit_zero origin1]
  simp only [View.ld_unit_zero (S := S5000x128) origin1, View.ld_unit_zero (S := S128x128) origin1, View.ld_unit_zero (S := S1x128) origin1]
  exact block1_of_rows t (k1_pay1 (iblk1 V c 0 t) (iblk1 V c 1 t) (iblk1 V c 2 t) (iblk1 V c 3 t) (iblk1 V c 4 t) (iblk1 V c 5 t) (iblk1 V c 6 t)) (layer1 V c)
    (fun p q i hi => stored1_rows V c t p q i hi)

/-- The result array after region 1: the layer applied to the three term arrays, the three weight matrices and the bias
    row as the region found them. -/
theorem region1 (c : Dev nD) :
    ((dat1 (F := Ideal) V c).arrAt 7 cfg1.N : S50000x128.Idx → EReal)
      = Cert.Layer.relu (R := 50000) (n := 128) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (dat1 (F := Ideal) V c).arrAt_eq_of_cover 7 (layer1 V c) (fun t _ => flushed1 V c t) cover1

end Cert.KernelIdeal.RegionValue

end
-- ==== Proof.RefLayer2.lean ====
/-
  The reference's second layer, read entry by entry, is the dense combine of Layer.lean.

  Entry (r, j) of the reference's result is

      max ( pre[r,j], 0 )    with
      pre[r,j] = ((Σ_k T0[r,k]·W0[k,j] + Σ_k T1[r,k]·W1[k,j]) + Σ_k T2[r,k]·W2[k,j]) + b[0,j]

  where each contraction is a sum over the 128 features, the three are added left to right, and the bias, a row of
  128 entries, is repeated along the 50000 rows.  The zero of the maximum is the single-precision zero word's value,
  the same word on both sides, so its value is never needed.

  The proof reads every operation of the chain at the index (r, j) and identifies the indices at which the operands
  are read: the left factor of a contraction at (r, k), the right factor at (k, j), the bias row at (0, j).  The three
  terms T0, T1, T2 and the three weight matrices stay unopened.
-/
import proofs.«178498_j59657095741758_1_alg».proof.Proof.RefRead
import proofs.«178498_j59657095741758_1_alg».proof.Proof.Layer

noncomputable section

namespace Cert.ReferenceIdeal.RefLayer

open Cert.ReferenceIdeal Cert.ReferenceIdeal.ReadP Idealize.ShloMosaic Idealize.ShloMosaic.ValueIdx

/-- The left factor of contraction 76 at entry (r, j), summand k, is read at (r, k). -/
theorem lidx76 (r : Fin 50000) (j : Fin 128) (k : Fin 128) : lidx_main_v76 (ix2 r j) k = ix2 r k :=
  funext fun a => Fin.ext (by match a with | ⟨0, _⟩ => rfl | ⟨1, _⟩ => rfl)
/-- The right factor of contraction 76 at entry (r, j), summand k, is read at (k, j). -/
theorem ridx76 (r : Fin 50000) (j : Fin 128) (k : Fin 128) : ridx_main_v76 (ix2 r j) k = ix2 k j :=
  funext fun a => Fin.ext (by match a with | ⟨0, _⟩ => rfl | ⟨1, _⟩ => rfl)
/-- The left factor of contraction 92 at entry (r, j), summand k, is read at (r, k). -/
theorem lidx92 (r : Fin 50000) (j : Fin 128) (k : Fin 128) : lidx_main_v92 (ix2 r j) k = ix2 r k :=
  funext fun a => Fin.ext (by match a with | ⟨0, _⟩ => rfl | ⟨1, _⟩ => rfl)
/-- The right factor of contraction 92 at entry (r, j), summand k, is read at (k, j). -/
theorem ridx92 (r : Fin 50000) (j : Fin 128) (k : Fin 128) : ridx_main_v92 (ix2 r j) k = ix2 k j :=
  funext fun a => Fin.ext (by match a with | ⟨0, _⟩ => rfl | ⟨1, _⟩ => rfl)
/-- The left factor of contraction 112 at entry (r, j), summand k, is read at (r, k). -/
theorem lidx112 (r : Fin 50000) (j : Fin 128) (k : Fin 128) : lidx_main_v112 (ix2 r j) k = ix2 r k :=
  funext fun a => Fin.ext (by match a with | ⟨0, _⟩ => rfl | ⟨1, _⟩ => rfl)
/-- The right factor of contraction 112 at entry (r, j), summand k, is read at (k, j). -/
theorem ridx112 (r : Fin 50000) (j : Fin 128) (k : Fin 128) : ridx_main_v112 (ix2 r j) k = ix2 k j :=
  funext fun a => Fin.ext (by match a with | ⟨0, _⟩ => rfl | ⟨1, _⟩ => rfl)
/-- The bias row repeated along the rows is read, at entry (r, j), at (0, j). -/
theorem idx115 (r : Fin 50000) (j : Fin 128) : idx_main_v115 (ix2 r j) = ix2 0 j :=
  funext fun a => Fin.ext (by match a with | ⟨0, _⟩ => rfl | ⟨1, _⟩ => rfl)

/-- The reference's second layer is the hidden layer of the first layer's result and its two further terms. -/
theorem layer2 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S128, .f32⟩ : BufTy).Contents (Elt Ideal))
    (x4 : (⟨S3x128x128, .f32⟩ : BufTy).Contents (Elt Ideal)) (x5 : (⟨S128, .f32⟩ : BufTy).Contents (Elt Ideal)) :
    val_main_v117 (F := Ideal) x0 x1 x2 x3 x4 x5
      = Cert.Layer.relu (val_main_v73 (F := Ideal) x0 x1 x2 x3) (val_main_v89 (F := Ideal) x0 x1 x2 x3) (val_main_v109 (F := Ideal) x0 x1 x2 x3)
      (val_main_v75 (F := Ideal) x4) (val_main_v91 (F := Ideal) x4) (val_main_v111 (F := Ideal) x4)
      (val_main_v114 (F := Ideal) x5) := by
  funext i
  obtain ⟨r, j, rfl⟩ : ∃ (r : Fin 50000) (j : Fin 128), i = ix2 r j := ⟨i 0, i 1, eq_ix2 i⟩
  show _ = max (Cert.Layer.pre (val_main_v73 (F := Ideal) x0 x1 x2 x3) (val_main_v89 (F := Ideal) x0 x1 x2 x3) (val_main_v109 (F := Ideal) x0 x1 x2 x3)
      (val_main_v75 (F := Ideal) x4) (val_main_v91 (F := Ideal) x4) (val_main_v111 (F := Ideal) x4)
      (val_main_v114 (F := Ideal) x5) r j) (Ideal.ofBits .f32 0x00000000#32)
  rw [val_main_v117_apply, val_main_v116_apply, val_main_v113_apply, val_main_v93_apply, val_main_v76_apply,
    val_main_v92_apply, val_main_v112_apply, val_main_v115_apply, val_main_call2_v0_apply, val_main_call2_cst_apply]
  unfold Cert.Layer.pre Cert.Layer.rowDot
  simp only [lidx76, ridx76, lidx92, ridx92, lidx112, ridx112, idx115, Ideal.addf_def, Ideal.maximumf_def, Ideal.ofBits_def]

end Cert.ReferenceIdeal.RefLayer

end
-- ==== Proof.Layer2Value.lean ====
/-
  The second layer's result.

  Region 1 leaves in its output array the hidden layer's function of the seven arrays it found; those are the
  reference's stages for them (the first layer's result and its two Chebyshev terms, the second layer's weight matrices
  and bias row), and the reference's chain for the layer is the same function of them. So the array region 1 leaves is
  the reference's second hidden layer.
-/
import proofs.«178498_j59657095741758_1_alg».proof.Proof.HostRead1
import proofs.«178498_j59657095741758_1_alg».proof.Proof.RegionValue1
import proofs.«178498_j59657095741758_1_alg».proof.Proof.RefLayer2
import proofs.«178498_j59657095741758_1_alg».proof.Proof.LibCongr
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 2000000 in
/-- At region 1's exit its output array holds the reference's second hidden layer. -/
theorem h2_at6 : W6 m ρ c (Proc.devRef .tc main_v103)
    = Cert.ReferenceIdeal.ReadP.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W6_arr m ρ c 7).trans <| (Cert.KernelIdeal.RegionValue.region1 (V5 m ρ) c).trans <|
    (Cert.LibCongr.congr7 (Cert.Layer.relu (R := 50000) (n := 128)) (T0_at5 m ρ c) (T1_at5 m ρ c) (T2_at5 m ρ c) (W0_at5 m ρ c) (W1_at5 m ρ c) (W2_at5 m ρ c) (b_at5 m ρ c)).trans
      (Cert.ReferenceIdeal.RefLayer.layer2 _ _ _ _ _ _).symm

end Cert.KernelIdeal.HostValue

end
-- ==== Proof.HostRead2.lean ====
/-
  What region 2 finds in its arrays.

  Between the second and the last dense combine the program computes, from the second layer's result h, the Chebyshev
  terms L·h and 2·L·(L·h) - h over the same edge list and edge weights, the last layer's three weight matrices (128 rows,
  32 columns) and its bias row. Given that the second layer's result is the reference's, each array region 2 finds is
  the reference's stage for it.
-/
import proofs.«178498_j59657095741758_1_alg».proof.Proof.Layer2Value
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The second layer's result, untouched by the stretch. -/
theorem T0_at7 : W7 m ρ c (Proc.devRef .tc main_v103)
    = Cert.ReferenceIdeal.ReadP.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  simp only [h2_at6 m ρ c, v1_at6 m ρ c, v3_at6 m ρ c, v29_at6 m ρ c, arg6_at6 m ρ c, arg7_at6 m ρ c] <;> rfl

/-- Its first Chebyshev term. -/
theorem T1_at7 : W7 m ρ c (Proc.devRef .tc main_v116)
    = Cert.ReferenceIdeal.ReadP.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  simp only [h2_at6 m ρ c, v1_at6 m ρ c, v3_at6 m ρ c, v29_at6 m ρ c, arg6_at6 m ρ c, arg7_at6 m ρ c, gather_mul_comm] <;> rfl

/-- Its second Chebyshev term. -/
theorem T2_at7 : W7 m ρ c (Proc.devRef .tc main_v132)
    = Cert.ReferenceIdeal.ReadP.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  simp only [h2_at6 m ρ c, v1_at6 m ρ c, v3_at6 m ρ c, v29_at6 m ρ c, arg6_at6 m ρ c, arg7_at6 m ρ c, gather_mul_comm] <;> rfl

/-- The last layer's weight matrix of order 0. -/
theorem W0_at7 : W7 m ρ c (Proc.devRef .tc main_v134)
    = Cert.ReferenceIdeal.ReadP.val_main_v119 (F := Ideal) (m ((c.tc : Thread nD τ).loc main_arg6)) := by
  after_results_simp
  simp only [h2_at6 m ρ c, v1_at6 m ρ c, v3_at6 m ρ c, v29_at6 m ρ c, arg6_at6 m ρ c, arg7_at6 m ρ c] <;> rfl

/-- The last layer's weight matrix of order 1. -/
theorem W1_at7 : W7 m ρ c (Proc.devRef .tc main_v136)
    = Cert.ReferenceIdeal.ReadP.val_main_v135 (F := Ideal) (m ((c.tc : Thread nD τ).loc main_arg6)) := by
  after_results_simp
  simp only [h2_at6 m ρ c, v1_at6 m ρ c, v3_at6 m ρ c, v29_at6 m ρ c, arg6_at6 m ρ c, arg7_at6 m ρ c] <;> rfl

/-- The last layer's weight matrix of order 2. -/
theorem W2_at7 : W7 m ρ c (Proc.devRef .tc main_v138)
    = Cert.ReferenceIdeal.ReadP.val_main_v155 (F := Ideal) (m ((c.tc : Thread nD τ).loc main_arg6)) := by
  after_results_simp
  simp only [h2_at6 m ρ c, v1_at6 m ρ c, v3_at6 m ρ c, v29_at6 m ρ c, arg6_at6 m ρ c, arg7_at6 m ρ c] <;> rfl

/-- The last layer's bias as a row. -/
theorem b_at7 : W7 m ρ c (Proc.devRef .tc main_v139)
    = Cert.ReferenceIdeal.ReadP.val_main_v158 (F := Ideal) (m ((c.tc : Thread nD τ).loc main_arg7)) := by
  after_results_simp
  simp only [arg7_at6 m ρ c]
  exact Cert.LibVec.row_of_vec _ _ _ (by decide)

end Cert.KernelIdeal.HostValue

end
-- ==== Proof.RegionValuePay2.lean ====
/-
  Region 2: the value the body stores, read entry by entry.

  At a grid point the body holds a block of 5000 rows of each of the three terms, the three weight matrices and the bias
  row.  It narrows each operand (the identity on the extended reals), multiplies each term's block by its weight matrix
  into an accumulator of zeros, adds the three products left to right, adds the bias row to every row, and takes
  the hyperbolic tangent.  So entry (p, q) of what it stores is the layer's formula on the rows p of the three blocks:
  tanh ( Σ_k T0[p,k]·W0[k,q] + Σ_k T1[p,k]·W1[k,q] + Σ_k T2[p,k]·W2[k,q] + b[0,q] ).
-/
import proofs.«178498_j59657095741758_1_alg».proof.Proof.Gen.KernelIdeal.Frame
import proofs.«178498_j59657095741758_1_alg».proof.Proof.Layer
import proofs.«178498_j59657095741758_1_alg».proof.Proof.RegionValueMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx

/-- The hyperbolic tangent of a block, read at an index, is the hyperbolic tangent of the entry. -/
theorem tanh_entry {s : Shape} {φ : FTy} (a : FVec Ideal s φ) (i : s.Idx) : tanh a i = Ideal.tanh (a i) := rfl

/-- Entry (p, q) of the stored block is the layer's formula on rows p of the three term blocks. -/
theorem pay2_apply (x0 x1 x2 : Vec Ideal S5000x128 .f32) (x3 x4 x5 : Vec Ideal S128x32 .f32) (x6 : Vec Ideal S1x32 .f32)
    (p : Fin 5000) (q : Fin 32) :
    k2_pay1 x0 x1 x2 x3 x4 x5 x6 (ix2 p q) = Cert.Layer.tanh (R := 5000) (n := 32) x0 x1 x2 x3 x4 x5 x6 (ix2 p q) := by
  unfold k2_pay1
  simp only [shapeCast_self]
  rw [tanh_entry, addf_apply, addf_apply, addf_apply, matmul_zero_32, matmul_zero_32, matmul_zero_32,
    broadcastTo_1b_ab_apply]
  rfl

end Cert.KernelIdeal.RegionValue

end
-- ==== Proof.RegionValueBlocks2.lean ====
/-
  Region 2 of the program (the third graph-convolution layer's dense combine), the blocks its ten grid points see.

  The three term arrays and the result array have 50000 rows and are cut into ten blocks of 5000 consecutive rows, one
  per grid point: entry (p, k) of the block at point t is entry (5000·t + p, k) of the array.  The three weight matrices
  and the bias row are not cut: their block at every point is the whole array.  A block's coordinate on an axis is always
  (block index) × (block size) + 1 × (coordinate inside the block); the block indices are read off the index maps once,
  over the ten points.  Every point writes its block of the result back, and the ten blocks cover the result array:
  row i lies in the block of point i / 5000.
-/
import proofs.«178498_j59657095741758_1_alg».proof.Proof.Gen.KernelIdeal.Frame
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The grid of region 2 has ten points. -/
theorem points2 : ∀ t : Fin cfg2.N, t.val < 10 := (by decide +kernel : ∀ t : Fin grid2.N, _)

/-- The block indices of the three terms and of the result over the grid: block row t, block column 0. -/
theorem index2_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 2) = t.val ∧ win2_7.index t (1 : Fin 2) = 0 :=
  (by decide +kernel : ∀ t : Fin grid2.N, _)

/-- The block indices of the three weight matrices and of the bias row over the grid: always block (0, 0). -/
theorem index2_whole : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Entry (p, k) of the first term's block at point t is entry (5000·t + p, k) of its array. -/
theorem term2_0_rows (c : Dev nD) (t : Fin cfg2.N) (p : Fin 5000) (k : Fin 128) (i : Fin 50000)
    (hi : i.val = t.val * 5000 + p.val) :
    (iblk2 V c 0 t : S5000x128.Idx → EReal) (ix2 p k) = (V c (Pipeline.arrRef spec2 0) : S50000x128.Idx → EReal) (ix2 i k) := by
  obtain ⟨a0, a1, b0, b1, c0, c1, -⟩ := index2_rows t
  show V c (Pipeline.arrRef spec2 0) (((cfg2.win 0).blk t).view.emb (ix2 p k)) = V c (Pipeline.arrRef spec2 0) (ix2 i k)
  refine congrArg (V c (Pipeline.arrRef spec2 0)) (funext fun a => Fin.ext ?_)
  match a with
  | ⟨0, _⟩ => show win2_0.index t (0 : Fin 2) * 5000 + 1 * p.val = i.val; omega
  | ⟨1, _⟩ => show win2_0.index t (1 : Fin 2) * 128 + 1 * k.val = k.val; omega

/-- Entry (p, k) of the second term's block at point t is entry (5000·t + p, k) of its array. -/
theorem term2_1_rows (c : Dev nD) (t : Fin cfg2.N) (p : Fin 5000) (k : Fin 128) (i : Fin 50000)
    (hi : i.val = t.val * 5000 + p.val) :
    (iblk2 V c 1 t : S5000x128.Idx → EReal) (ix2 p k) = (V c (Pipeline.arrRef spec2 1) : S50000x128.Idx → EReal) (ix2 i k) := by
  obtain ⟨a0, a1, b0, b1, c0, c1, -⟩ := index2_rows t
  show V c (Pipeline.arrRef spec2 1) (((cfg2.win 1).blk t).view.emb (ix2 p k)) = V c (Pipeline.arrRef spec2 1) (ix2 i k)
  refine congrArg (V c (Pipeline.arrRef spec2 1)) (funext fun a => Fin.ext ?_)
  match a with
  | ⟨0, _⟩ => show win2_1.index t (0 : Fin 2) * 5000 + 1 * p.val = i.val; omega
  | ⟨1, _⟩ => show win2_1.index t (1 : Fin 2) * 128 + 1 * k.val = k.val; omega

/-- Entry (p, k) of the third term's block at point t is entry (5000·t + p, k) of its array. -/
theorem term2_2_rows (c : Dev nD) (t : Fin cfg2.N) (p : Fin 5000) (k : Fin 128) (i : Fin 50000)
    (hi : i.val = t.val * 5000 + p.val) :
    (iblk2 V c 2 t : S5000x128.Idx → EReal) (ix2 p k) = (V c (Pipeline.arrRef spec2 2) : S50000x128.Idx → EReal) (ix2 i k) := by
  obtain ⟨a0, a1, b0, b1, c0, c1, -⟩ := index2_rows t
  show V c (Pipeline.arrRef spec2 2) (((cfg2.win 2).blk t).view.emb (ix2 p k)) = V c (Pipeline.arrRef spec2 2) (ix2 i k)
  refine congrArg (V c (Pipeline.arrRef spec2 2)) (funext fun a => Fin.ext ?_)
  match a with
  | ⟨0, _⟩ => show win2_2.index t (0 : Fin 2) * 5000 + 1 * p.val = i.val; omega
  | ⟨1, _⟩ => show win2_2.index t (1 : Fin 2) * 128 + 1 * k.val = k.val; omega

/-- The first weight matrix's block at every point is the whole matrix. -/
theorem weight2_3 (c : Dev nD) (t : Fin cfg2.N) :
    (iblk2 V c 3 t : S128x32.Idx → EReal) = (V c (Pipeline.arrRef spec2 3) : S128x32.Idx → EReal) := by
  obtain ⟨a0, a1, b0, b1, c0, c1, d0, d1⟩ := index2_whole t
  funext j
  show V c (Pipeline.arrRef spec2 3) (((cfg2.win 3).blk t).view.emb j) = V c (Pipeline.arrRef spec2 3) j
  refine congrArg (V c (Pipeline.arrRef spec2 3)) (funext fun a => Fin.ext ?_)
  match a with
  | ⟨0, _⟩ => show win2_3.index t (0 : Fin 2) * 128 + 1 * (j 0).val = (j 0).val; omega
  | ⟨1, _⟩ => show win2_3.index t (1 : Fin 2) * 32 + 1 * (j 1).val = (j 1).val; omega

/-- The second weight matrix's block at every point is the whole matrix. -/
theorem weight2_4 (c : Dev nD) (t : Fin cfg2.N) :
    (iblk2 V c 4 t : S128x32.Idx → EReal) = (V c (Pipeline.arrRef spec2 4) : S128x32.Idx → EReal) := by
  obtain ⟨a0, a1, b0, b1, c0, c1, d0, d1⟩ := index2_whole t
  funext j
  show V c (Pipeline.arrRef spec2 4) (((cfg2.win 4).blk t).view.emb j) = V c (Pipeline.arrRef spec2 4) j
  refine congrArg (V c (Pipeline.arrRef spec2 4)) (funext fun a => Fin.ext ?_)
  match a with
  | ⟨0, _⟩ => show win2_4.index t (0 : Fin 2) * 128 + 1 * (j 0).val = (j 0).val; omega
  | ⟨1, _⟩ => show win2_4.index t (1 : Fin 2) * 32 + 1 * (j 1).val = (j 1).val; omega

/-- The third weight matrix's block at every point is the whole matrix. -/
theorem weight2_5 (c : Dev nD) (t : Fin cfg2.N) :
    (iblk2 V c 5 t : S128x32.Idx → EReal) = (V c (Pipeline.arrRef spec2 5) : S128x32.Idx → EReal) := by
  obtain ⟨a0, a1, b0, b1, c0, c1, d0, d1⟩ := index2_whole t
  funext j
  show V c (Pipeline.arrRef spec2 5) (((cfg2.win 5).blk t).view.emb j) = V c (Pipeline.arrRef spec2 5) j
  refine congrArg (V c (Pipeline.arrRef spec2 5)) (funext fun a => Fin.ext ?_)
  match a with
  | ⟨0, _⟩ => show win2_5.index t (0 : Fin 2) * 128 + 1 * (j 0).val = (j 0).val; omega
  | ⟨1, _⟩ => show win2_5.index t (1 : Fin 2) * 32 + 1 * (j 1).val = (j 1).val; omega

/-- The bias row's block at every point is the whole row. -/
theorem bias2 (c : Dev nD) (t : Fin cfg2.N) :
    (iblk2 V c 6 t : S1x32.Idx → EReal) = (V c (Pipeline.arrRef spec2 6) : S1x32.Idx → EReal) := by
  obtain ⟨a0, a1, b0, b1, c0, c1, d0, d1⟩ := index2_whole t
  funext j
  show V c (Pipeline.arrRef spec2 6) (((cfg2.win 6).blk t).view.emb j) = V c (Pipeline.arrRef spec2 6) j
  refine congrArg (V c (Pipeline.arrRef spec2 6)) (funext fun a => Fin.ext ?_)
  match a with
  | ⟨0, _⟩ => show win2_6.index t (0 : Fin 2) * 1 + 1 * (j 0).val = (j 0).val; omega
  | ⟨1, _⟩ => show win2_6.index t (1 : Fin 2) * 32 + 1 * (j 1).val = (j 1).val; omega

/-- Entry (p, q) of the result's block at point t sits at entry (5000·t + p, q) of the result array. -/
theorem result2_rows (t : Fin cfg2.N) (p : Fin 5000) (q : Fin 32) (i : Fin 50000) (hi : i.val = t.val * 5000 + p.val) :
    (((cfg2.win 7).blk t).view.emb (ix2 p q) : S50000x32.Idx) = ix2 i q := by
  obtain ⟨-, -, -, -, -, -, d0, d1⟩ := index2_rows t
  refine funext fun a => Fin.ext ?_
  match a with
  | ⟨0, _⟩ => show win2_7.index t (0 : Fin 2) * 5000 + 1 * p.val = i.val; omega
  | ⟨1, _⟩ => show win2_7.index t (1 : Fin 2) * 32 + 1 * q.val = q.val; omega

/-- The block point t writes back, given row by row: if a block X of 5000 rows has, at every (p, q), the entry (5000·t + p, q)
    of a whole array G, then X is what reading block t of G gives. -/
theorem block2_of_rows (t : Fin cfg2.N) (X : S5000x32.Idx → EReal) (G : S50000x32.Idx → EReal)
    (h : ∀ (p : Fin 5000) (q : Fin 32) (i : Fin 50000), i.val = t.val * 5000 + p.val → X (ix2 p q) = G (ix2 i q)) :
    (cfg2.win 7).cut (grid2.coords t) X = ((cfg2.win 7).blk t).view.read (Elt Ideal) G := by
  have ht := points2 t
  show X = fun j : S5000x32.Idx => G (((cfg2.win 7).blk t).view.emb j)
  funext j
  obtain ⟨p, q, rfl⟩ : ∃ (p : Fin 5000) (q : Fin 32), j = ix2 p q := ⟨j 0, j 1, eq_ix2 j⟩
  show X (ix2 p q) = G (((cfg2.win 7).blk t).view.emb (ix2 p q))
  rw [result2_rows t p q ⟨t.val * 5000 + p.val, by omega⟩ rfl]
  exact h p q _ rfl

/-- An index of the result array is in point t's block iff each coordinate is in the block's range on its axis. -/
theorem mem_block2 (t : Fin cfg2.N) (i : S50000x32.Idx) :
    i ∈ ((cfg2.win 7).blk t).view.set
      ↔ ∀ a : Fin 2, win2_7.index t a * S5000x32.size a ≤ (i a).val ∧ (i a).val < win2_7.index t a * S5000x32.size a + S5000x32.size a := by
  show i ∈ ((View.whole main_v140).slice (win2_7.rect t)).set ↔ _
  rw [View.set_slice_whole, Rect.mem_set_unit]
  exact Iff.rfl

/-- The ten blocks cover the result array: row i lies in the block of point i / 5000, which is written back. -/
theorem cover2 (i : S50000x32.Idx) :
    ∃ t : Fin cfg2.N, (cfg2.win 7).flush t = true ∧ i ∈ ((cfg2.win 7).blk t).view.set := by
  have hi0 : (i 0).val < 50000 := (i 0).isLt
  have hi1 : (i 1).val < 32 := (i 1).isLt
  have hN : grid2.N = 10 := N_2
  obtain ⟨t, ht⟩ : ∃ t : Fin cfg2.N, t.val = (i 0).val / 5000 := ⟨⟨(i 0).val / 5000, by show _ < grid2.N; rw [hN]; omega⟩, rfl⟩
  obtain ⟨-, -, -, -, -, -, d0, d1⟩ := index2_rows t
  refine ⟨t, flush2_7 t, ?_⟩
  rw [mem_block2]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 32 ≤ (i 1).val ∧ (i 1).val < win2_7.index t (1 : Fin 2) * 32 + 32
    omega

end Cert.KernelIdeal.RegionValue

end
-- ==== Proof.RegionValue2.lean ====
/-
  Region 2: the result array after the region has run is the third layer's formula on the arrays the region found.

  Each of the ten grid points stores, into its block of the result, the layer's formula on the rows of the term blocks it
  holds (the stored value, entry by entry); those rows are rows 5000·t … 5000·t + 4999 of the term arrays and the weights
  and the bias row it holds are the whole arrays (the blocks), so what point t writes back is block t of ONE whole-array
  function: the layer applied to the three term arrays, the three weight matrices and the bias row as the region found
  them.  The ten blocks cover the result array, so after the region it holds that function everywhere.
-/
import proofs.«178498_j59657095741758_1_alg».proof.Proof.Gen.KernelIdeal.Frame
import proofs.«178498_j59657095741758_1_alg».proof.Proof.Layer
import proofs.«178498_j59657095741758_1_alg».proof.Proof.RegionValuePay2
import proofs.«178498_j59657095741758_1_alg».proof.Proof.RegionValueBlocks2
import Idealize.ShloMosaic.Lib.ValueIdx
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of every access in the body: zero on both axes. -/
theorem origin2 : (![0, 0] : Fin 2 → Nat) = fun _ => 0 := funext fun a => by fin_cases a <;> rfl

/-- The layer on the arrays the region found: the whole-array function the result array ends holding. -/
def layer2 (c : Dev nD) : S50000x32.Idx → EReal :=
  Cert.Layer.tanh (R := 50000) (n := 32) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))

/-- A block of rows of the layer's result, with the weights and the bias row given as the blocks a point holds: entry
    (p, j) of the block is entry (i, j) of the whole result when the blocks of the terms are rows i of the terms and the
    blocks of the weights and of the bias row are the whole arrays. -/
theorem tanh_block2 (T0 T1 T2 : S50000x128.Idx → EReal) (T0' T1' T2' : S5000x128.Idx → EReal)
    (W0 W1 W2 W0' W1' W2' : S128x32.Idx → EReal) (b b' : S1x32.Idx → EReal) (i : Fin 50000) (p : Fin 5000) (j : Fin 32)
    (h0 : ∀ k, T0' (ix2 p k) = T0 (ix2 i k)) (h1 : ∀ k, T1' (ix2 p k) = T1 (ix2 i k)) (h2 : ∀ k, T2' (ix2 p k) = T2 (ix2 i k))
    (hW0 : W0' = W0) (hW1 : W1' = W1) (hW2 : W2' = W2) (hb : b' = b) :
    Cert.Layer.tanh (R := 5000) (n := 32) T0' T1' T2' W0' W1' W2' b' (ix2 p j)
      = Cert.Layer.tanh (R := 50000) (n := 32) T0 T1 T2 W0 W1 W2 b (ix2 i j) := by
  subst hW0 hW1 hW2 hb
  exact Cert.Layer.tanh_rows T0 T1 T2 T0' T1' T2' W0' W1' W2' b' i p j h0 h1 h2

/-- Entry (p, q) of what point t stores is entry (5000·t + p, q) of the layer on the whole arrays. -/
theorem stored2_rows (c : Dev nD) (t : Fin cfg2.N) (p : Fin 5000) (q : Fin 32) (i : Fin 50000)
    (hi : i.val = t.val * 5000 + p.val) :
    k2_pay1 (iblk2 V c 0 t) (iblk2 V c 1 t) (iblk2 V c 2 t) (iblk2 V c 3 t) (iblk2 V c 4 t) (iblk2 V c 5 t) (iblk2 V c 6 t) (ix2 p q) = layer2 V c (ix2 i q) := by
  unfold layer2
  refine (pay2_apply (iblk2 V c 0 t) (iblk2 V c 1 t) (iblk2 V c 2 t) (iblk2 V c 3 t) (iblk2 V c 4 t) (iblk2 V c 5 t) (iblk2 V c 6 t) p q).trans ?_
  exact tanh_block2 (V c (Pipeline.arrRef spec2 0)) (V c (Pipeline.arrRef spec2 1)) (V c (Pipeline.arrRef spec2 2)) (iblk2 V c 0 t) (iblk2 V c 1 t) (iblk2 V c 2 t)
    (V c (Pipeline.arrRef spec2 3)) (V c (Pipeline.arrRef spec2 4)) (V c (Pipeline.arrRef spec2 5)) (iblk2 V c 3 t) (iblk2 V c 4 t) (iblk2 V c 5 t) (V c (Pipeline.arrRef spec2 6)) (iblk2 V c 6 t) i p q
    (fun k => term2_0_rows V c t p k i hi) (fun k => term2_1_rows V c t p k i hi) (fun k => term2_2_rows V c t p k i hi)
    (weight2_3 V c t) (weight2_4 V c t) (weight2_5 V c t) (bias2 V c t)

/-- What point t writes back is block t of the layer on the whole arrays. -/
theorem flushed2 (c : Dev nD) (t : Fin cfg2.N) :
    (dat2 (F := Ideal) V c).flushed 7 t = ((cfg2.win 7).blk t).view.read (Elt Ideal) (layer2 V c) := by
  show (cfg2.win 7).cut (grid2.coords t) ((dat2 V c).after 7 t) = _
  rw [after2_7]
  unfold out2_7
  rw [View.canon_unit_zero origin2]
  simp only [View.ld_unit_zero (S := S5000x128) origin2, View.ld_unit_zero (S := S128x32) origin2, View.ld_unit_zero (S := S1x32) origin2]
  exact block2_of_rows t (k2_pay1 (iblk2 V c 0 t) (iblk2 V c 1 t) (iblk2 V c 2 t) (iblk2 V c 3 t) (iblk2 V c 4 t) (iblk2 V c 5 t) (iblk2 V c 6 t)) (layer2 V c)
    (fun p q i hi => stored2_rows V c t p q i hi)

/-- The result array after region 2: the layer applied to the three term arrays, the three weight matrices and the bias
    row as the region found them. -/
theorem region2 (c : Dev nD) :
    ((dat2 (F := Ideal) V c).arrAt 7 cfg2.N : S50000x32.Idx → EReal)
      = Cert.Layer.tanh (R := 50000) (n := 32) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) V c).arrAt_eq_of_cover 7 (layer2 V c) (fun t _ => flushed2 V c t) cover2

end Cert.KernelIdeal.RegionValue

end
-- ==== Proof.RefLayer3.lean ====
/-
  The reference's last layer, read entry by entry, is the dense combine of Layer.lean.

  Entry (r, j) of the reference's result is

      tanh ( pre[r,j] )    with
      pre[r,j] = ((Σ_k T0[r,k]·W0[k,j] + Σ_k T1[r,k]·W1[k,j]) + Σ_k T2[r,k]·W2[k,j]) + b[0,j]

  where each contraction is a sum over the 128 features, the three are added left to right, and the bias, a row of
  32 entries, is repeated along the 50000 rows.  The result has 32 columns, and the activation is the hyperbolic
  tangent on the extended reals.

  The proof reads every operation of the chain at the index (r, j) and identifies the indices at which the operands
  are read: the left factor of a contraction at (r, k), the right factor at (k, j), the bias row at (0, j).  The three
  terms T0, T1, T2 and the three weight matrices stay unopened.
-/
import proofs.«178498_j59657095741758_1_alg».proof.Proof.RefRead
import proofs.«178498_j59657095741758_1_alg».proof.Proof.Layer

noncomputable section

namespace Cert.ReferenceIdeal.RefLayer

open Cert.ReferenceIdeal Cert.ReferenceIdeal.ReadP Idealize.ShloMosaic Idealize.ShloMosaic.ValueIdx

/-- The left factor of contraction 120 at entry (r, j), summand k, is read at (r, k). -/
theorem lidx120 (r : Fin 50000) (j : Fin 32) (k : Fin 128) : lidx_main_v120 (ix2 r j) k = ix2 r k :=
  funext fun a => Fin.ext (by match a with | ⟨0, _⟩ => rfl | ⟨1, _⟩ => rfl)
/-- The right factor of contraction 120 at entry (r, j), summand k, is read at (k, j). -/
theorem ridx120 (r : Fin 50000) (j : Fin 32) (k : Fin 128) : ridx_main_v120 (ix2 r j) k = ix2 k j :=
  funext fun a => Fin.ext (by match a with | ⟨0, _⟩ => rfl | ⟨1, _⟩ => rfl)
/-- The left factor of contraction 136 at entry (r, j), summand k, is read at (r, k). -/
theorem lidx136 (r : Fin 50000) (j : Fin 32) (k : Fin 128) : lidx_main_v136 (ix2 r j) k = ix2 r k :=
  funext fun a => Fin.ext (by match a with | ⟨0, _⟩ => rfl | ⟨1, _⟩ => rfl)
/-- The right factor of contraction 136 at entry (r, j), summand k, is read at (k, j). -/
theorem ridx136 (r : Fin 50000) (j : Fin 32) (k : Fin 128) : ridx_main_v136 (ix2 r j) k = ix2 k j :=
  funext fun a => Fin.ext (by match a with | ⟨0, _⟩ => rfl | ⟨1, _⟩ => rfl)
/-- The left factor of contraction 156 at entry (r, j), summand k, is read at (r, k). -/
theorem lidx156 (r : Fin 50000) (j : Fin 32) (k : Fin 128) : lidx_main_v156 (ix2 r j) k = ix2 r k :=
  funext fun a => Fin.ext (by match a with | ⟨0, _⟩ => rfl | ⟨1, _⟩ => rfl)
/-- The right factor of contraction 156 at entry (r, j), summand k, is read at (k, j). -/
theorem ridx156 (r : Fin 50000) (j : Fin 32) (k : Fin 128) : ridx_main_v156 (ix2 r j) k = ix2 k j :=
  funext fun a => Fin.ext (by match a with | ⟨0, _⟩ => rfl | ⟨1, _⟩ => rfl)
/-- The bias row repeated along the rows is read, at entry (r, j), at (0, j). -/
theorem idx159 (r : Fin 50000) (j : Fin 32) : idx_main_v159 (ix2 r j) = ix2 0 j :=
  funext fun a => Fin.ext (by match a with | ⟨0, _⟩ => rfl | ⟨1, _⟩ => rfl)

/-- The reference's last layer is the hyperbolic-tangent layer of the second layer's result and its two further terms. -/
theorem layer3 (x0 : (⟨S50000x128, .f32⟩ : BufTy).Contents (Elt Ideal)) (x1 : (⟨S2x800000, .i32⟩ : BufTy).Contents (Elt Ideal))
    (x2 : (⟨S3x128x128, .f32⟩ : BufTy).Contents (Elt Ideal)) (x3 : (⟨S128, .f32⟩ : BufTy).Contents (Elt Ideal))
    (x4 : (⟨S3x128x128, .f32⟩ : BufTy).Contents (Elt Ideal)) (x5 : (⟨S128, .f32⟩ : BufTy).Contents (Elt Ideal))
    (x6 : (⟨S3x128x32, .f32⟩ : BufTy).Contents (Elt Ideal)) (x7 : (⟨S32, .f32⟩ : BufTy).Contents (Elt Ideal)) :
    val_main_v161 (F := Ideal) x0 x1 x2 x3 x4 x5 x6 x7
      = Cert.Layer.tanh (val_main_v117 (F := Ideal) x0 x1 x2 x3 x4 x5) (val_main_v133 (F := Ideal) x0 x1 x2 x3 x4 x5) (val_main_v153 (F := Ideal) x0 x1 x2 x3 x4 x5)
      (val_main_v119 (F := Ideal) x6) (val_main_v135 (F := Ideal) x6) (val_main_v155 (F := Ideal) x6)
      (val_main_v158 (F := Ideal) x7) := by
  funext i
  obtain ⟨r, j, rfl⟩ : ∃ (r : Fin 50000) (j : Fin 32), i = ix2 r j := ⟨i 0, i 1, eq_ix2 i⟩
  show _ = Ideal.tanh (Cert.Layer.pre (val_main_v117 (F := Ideal) x0 x1 x2 x3 x4 x5) (val_main_v133 (F := Ideal) x0 x1 x2 x3 x4 x5) (val_main_v153 (F := Ideal) x0 x1 x2 x3 x4 x5)
      (val_main_v119 (F := Ideal) x6) (val_main_v135 (F := Ideal) x6) (val_main_v155 (F := Ideal) x6)
      (val_main_v158 (F := Ideal) x7) r j)
  rw [val_main_v161_apply, val_main_v160_apply, val_main_v157_apply, val_main_v137_apply, val_main_v120_apply,
    val_main_v136_apply, val_main_v156_apply, val_main_v159_apply]
  unfold Cert.Layer.pre Cert.Layer.rowDot
  simp only [lidx120, ridx120, lidx136, ridx136, lidx156, ridx156, idx159, Ideal.addf_def, Ideal.hostUnary_tanh_def]

end Cert.ReferenceIdeal.RefLayer

end
-- ==== Proof.Layer3Value.lean ====
/-
  The result.

  Region 2 leaves in its output array the last layer's function (the three Chebyshev terms of the second hidden layer
  against the 128 × 32 weight matrices, summed left to right, plus the bias, then the hyperbolic tangent) of the seven
  arrays it found; those are the reference's stages for them, and the reference's chain for the layer is the same
  function of them. So the array the kernel's program returns is the array the reference returns, as a function of the
  eight argument arrays.
-/
import proofs.«178498_j59657095741758_1_alg».proof.Proof.HostRead2
import proofs.«178498_j59657095741758_1_alg».proof.Proof.RegionValue2
import proofs.«178498_j59657095741758_1_alg».proof.Proof.RefLayer3
import proofs.«178498_j59657095741758_1_alg».proof.Proof.LibCongr
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 2000000 in
/-- At the end of @main the result array holds the reference's result. -/
theorem result_at8 : W8 m ρ c (Proc.devRef .tc main_v140)
    = Cert.ReferenceIdeal.ReadP.val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W8_arr m ρ c 7).trans <| (Cert.KernelIdeal.RegionValue.region2 (V7 m ρ) c).trans <|
    (Cert.LibCongr.congr7 (Cert.Layer.tanh (R := 50000) (n := 32)) (T0_at7 m ρ c) (T1_at7 m ρ c) (T2_at7 m ρ c) (W0_at7 m ρ c) (W1_at7 m ρ c) (W2_at7 m ρ c) (b_at7 m ρ c)).trans
      (Cert.ReferenceIdeal.RefLayer.layer3 _ _ _ _ _ _ _ _).symm

end Cert.KernelIdeal.HostValue

end
-- ==== Proof.lean ====
/-
  A stack of three Chebyshev graph convolutions of order three on a graph of 50000 nodes and 800000 edges: the kernel
  against its reference, on the extended reals.

  Both programs compute, from the node features x, the edge list and three layers' weights and biases: every node's
  out-degree d and the edge weights w_e = -d(src e)^(-1/2) · d(dst e)^(-1/2) (zero where the degree is zero); and then,
  layer by layer from h = x, the Chebyshev terms T0 = h, T1 = L·h, T2 = 2·L·T1 - h, where (L·h)[v] is the sum over the
  edges e into v of w_e · h[src e], and the layer's result act(T0·W0 + T1·W1 + T2·W2 + b), with act the maximum with
  zero for the first two layers and the hyperbolic tangent for the last. The gathers, products with the weights and
  scatter-adds that make L are host operations in both programs. The kernel's program computes each layer's
  act(T0·W0 + T1·W1 + T2·W2 + b) in a pipelined region over ten blocks of 5000 rows (three matrix products into a zero
  accumulator, added left to right, the bias row broadcast over the rows, the activation); the reference computes it by
  three whole contractions, two sums, a broadcast and the activation.

  On the extended reals the two are one function of the eight argument arrays, entry by entry, and finiteness of the
  inputs is never used: a matrix product into a zero accumulator and a whole contraction are the same sum over the
  128 features; the sums are added in the same order in both programs; a block of rows of a layer's result depends only
  on that block of rows of its three terms, and the ten blocks cover the rows; the product inside L is written
  h[src e] · w_e in one program and w_e · h[src e] in the other, and products of extended reals commute; the bias row is
  made by re-laying the vector in one program and by a broadcast in the other, and both put entry j at (0, j).

  The modules: Layer (one layer's combine, entry by entry), RegionValue… (each region's output array is that function of
  the arrays the region finds), RefLayer… (the reference's chain for a layer is that function), HostRead… (the arrays a
  region finds are the reference's stages for them), Layer…Value (so each region leaves the reference's layer),
  KernelRun (the kernel's run with its result named), RefRun and RefRead (the reference's run, and its stages read at an
  index). Here: the three frames, the idealization's ledger (empty), and the two runs side by side.
-/
import proofs.«178498_j59657095741758_1_alg».proof.Defs
import proofs.«178498_j59657095741758_1_alg».proof.Proof.Gen.Kernel
import proofs.«178498_j59657095741758_1_alg».proof.Proof.Gen.Kernel.Skeleton
import proofs.«178498_j59657095741758_1_alg».proof.Proof.Gen.Kernel.Launch
import proofs.«178498_j59657095741758_1_alg».proof.Proof.Gen.Kernel.Points
import proofs.«178498_j59657095741758_1_alg».proof.Proof.Gen.Kernel.Frame
import proofs.«178498_j59657095741758_1_alg».proof.Proof.Gen.KernelIdeal
import proofs.«178498_j59657095741758_1_alg».proof.Proof.Gen.KernelIdeal.Skeleton
import proofs.«178498_j59657095741758_1_alg».proof.Proof.Gen.KernelIdeal.Launch
import proofs.«178498_j59657095741758_1_alg».proof.Proof.Gen.KernelIdeal.Points
import proofs.«178498_j59657095741758_1_alg».proof.Proof.Gen.KernelIdeal.Frame
import proofs.«178498_j59657095741758_1_alg».proof.Proof.Gen.ReferenceIdeal
import proofs.«178498_j59657095741758_1_alg».proof.Proof.Gen.Pre_finite_inputs
import proofs.«178498_j59657095741758_1_alg».proof.Proof.KernelRun
import proofs.«178498_j59657095741758_1_alg».proof.Proof.Layer3Value
import Idealize.ShloMosaic.Adequacy
import Idealize.ShloMosaic.Init

noncomputable section

namespace Cert.Proof

open Idealize.ShloMosaic Idealize.SL.Sem

/-- The kernel as printed runs to the end, nothing faulting, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: there is nothing to restate. -/
theorem preserves : Cert.preserves_Kernel_KernelIdeal := trivial

/-- From memories agreeing on the eight arguments, the idealized kernel ends with its result array at the last segment
    boundary's contents, the reference with its result at its last stage of the arguments; the former is the latter. -/
theorem algebraic : Cert.algebraic_KernelIdeal_ReferenceIdeal := by
  intro m ρ m' ρ' _ hagree
  refine ⟨_, Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v161_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.HostValue.result_at8 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
